-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x10x10 : Shape := ⟨3, ![32768, 10, 10]⟩
abbrev S32768x256 : Shape := ⟨2, ![32768, 256]⟩
abbrev S10x256 : Shape := ⟨2, ![10, 256]⟩
abbrev S256 : Shape := ⟨1, ![256]⟩
abbrev S320x256 : Shape := ⟨2, ![320, 256]⟩
abbrev S256x256 : Shape := ⟨2, ![256, 256]⟩
abbrev S32768x10 : Shape := ⟨2, ![32768, 10]⟩
abbrev S32768 : Shape := ⟨1, ![32768]⟩
abbrev S_ : Shape := ⟨0, ![]⟩

class Facts : Prop where
  bcast_S_S32768x10x10 : S_.BroadcastsInDim S32768x10x10 (![] : Fin 0 → Fin S32768x10x10.rank)
  reducesTo_S32768x10x10_S_d0_1_2 : S32768x10x10.ReducesTo [0, 1, 2] S_
  h_S_ : 0 < S_.numel
  bcast_S_S32768x256 : S_.BroadcastsInDim S32768x256 (![] : Fin 0 → Fin S32768x256.rank)
  reducesTo_S32768x256_S_d0_1 : S32768x256.ReducesTo [0, 1] S_
  bcast_S_S10x256 : S_.BroadcastsInDim S10x256 (![] : Fin 0 → Fin S10x256.rank)
  reducesTo_S10x256_S_d0_1 : S10x256.ReducesTo [0, 1] S_
  bcast_S_S256 : S_.BroadcastsInDim S256 (![] : Fin 0 → Fin S256.rank)
  reducesTo_S256_S_d0 : S256.ReducesTo [0] S_
  bcast_S_S320x256 : S_.BroadcastsInDim S320x256 (![] : Fin 0 → Fin S320x256.rank)
  reducesTo_S320x256_S_d0_1 : S320x256.ReducesTo [0, 1] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S256 .f32) (main_arg12 : FVec F S256x256 .f32) (main_arg13 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S320x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S320x256 .f32 := Host.absf main_arg4
  let main_cst_6 : FVec F S_ .f32 := constant S_ .f32 0x7F800000#32
  let main_v20 : FVec F S320x256 .f32 := broadcastInDim S320x256 ![] bcast_S_S320x256 main_cst_6
  let main_v21 : IVec S320x256 1 := cmpf .olt main_v19 main_v20
  let main_c_7 : IVec S_ 1 := constantI S_ 1 1#1
  let main_v22 : IVec S_ 1 := (fun x v => Host.reduce IntOp.andi x v reducesTo_S320x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x10x10 .f32) (main_arg1 : FVec F S32768x256 .f32) (main_arg2 : FVec F S10x256 .f32) (main_arg3 : FVec F S256 .f32) (main_arg4 : FVec F S320x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : IVec S32768x10 32) (main_arg15 : IVec S32768 32) : IVec S_ 1 :=
  let main_v0 : FVec F S32768x10x10 .f32 := Host.absf main_arg0
  let main_cst : FVec F S_ .f32 := constant S_ .f32 0x7F800000#32
  let main_v1 : FVec F S32768x10x10 .f32 := broadcastInDim S32768x10x10 ![] bcast_S_S32768x10x10 main_cst
  let main_v2 : IVec S32768x10x10 1 := cmpf .olt main_v0 main_v1
  let main_c : IVec S_ 1 := constantI S_ 1 1#1
  let main_v3 : IVec S_ 1 := (fun x v => Host.reduce IntOp.andi x v reducesTo_S32768x10x10_S_d0_1_2 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S10x256 .f32 := Host.absf main_arg2
  let main_cst_2 : FVec F S_ .f32 := constant S_ .f32 0x7F800000#32
  let main_v10 : FVec F S10x256 .f32 := broadcastInDim S10x256 ![] bcast_S_S10x256 main_cst_2
  let main_v11 : IVec S10x256 1 := cmpf .olt main_v9 main_v10
  let main_c_3 : IVec S_ 1 := constantI S_ 1 1#1
  let main_v12 : IVec S_ 1 := (fun x v => Host.reduce IntOp.andi x v reducesTo_S10x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x10x10 : Shape := ⟨3, ![32768, 10, 10]⟩
abbrev S32768x256 : Shape := ⟨2, ![32768, 256]⟩
abbrev S10x256 : Shape := ⟨2, ![10, 256]⟩
abbrev S256 : Shape := ⟨1, ![256]⟩
abbrev S320x256 : Shape := ⟨2, ![320, 256]⟩
abbrev S256x256 : Shape := ⟨2, ![256, 256]⟩
abbrev S32768x10 : Shape := ⟨2, ![32768, 10]⟩
abbrev S32768 : Shape := ⟨1, ![32768]⟩
abbrev S32768x100 : Shape := ⟨2, ![32768, 100]⟩
abbrev S32768x1 : Shape := ⟨2, ![32768, 1]⟩
abbrev S1x256 : Shape := ⟨2, ![1, 256]⟩
abbrev S64x256 : Shape := ⟨2, ![64, 256]⟩
abbrev S32768x512 : Shape := ⟨2, ![32768, 512]⟩
abbrev S1024x100 : Shape := ⟨2, ![1024, 100]⟩
abbrev S1024x10 : Shape := ⟨2, ![1024, 10]⟩
abbrev S1024x1 : Shape := ⟨2, ![1024, 1]⟩
abbrev S1024x256 : Shape := ⟨2, ![1024, 256]⟩
abbrev S1024x512 : Shape := ⟨2, ![1024, 512]⟩
abbrev S1024x64 : Shape := ⟨2, ![1024, 64]⟩

abbrev nBuf : Space → Nat
  | .hbm => 27
  | .vmem => 23
  | .smem => 0
  | _ => 0

abbrev bufTy : (tb : Table) → Fin (tcTables nBuf tb) → BufTy
  | .hbm, ⟨0, _⟩ => ⟨S32768x10x10, .f32⟩
  | .hbm, ⟨1, _⟩ => ⟨S32768x256, .f32⟩
  | .hbm, ⟨2, _⟩ => ⟨S10x256, .f32⟩
  | .hbm, ⟨3, _⟩ => ⟨S256, .f32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S32768x10, .i32⟩
  | .hbm, ⟨15, _⟩ => ⟨S32768, .i32⟩
  | .hbm, ⟨16, _⟩ => ⟨S32768x100, .f32⟩
  | .hbm, ⟨17, _⟩ => ⟨S32768x1, .i32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S64x256, .f32⟩
  | .hbm, ⟨26, _⟩ => ⟨S32768x512, .f32⟩
  | .local _ .vmem, ⟨0, _⟩ => ⟨S1024x100, .f32⟩
  | .local _ .vmem, ⟨1, _⟩ => ⟨S1024x100, .f32⟩
  | .local _ .vmem, ⟨2, _⟩ => ⟨S1024x10, .i32⟩
  | .local _ .vmem, ⟨3, _⟩ => ⟨S1024x10, .i32⟩
  | .local _ .vmem, ⟨4, _⟩ => ⟨S1024x1, .i32⟩
  | .local _ .vmem, ⟨5, _⟩ => ⟨S1024x1, .i32⟩
  | .local _ .vmem, ⟨6, _⟩ => ⟨S1024x256, .f32⟩
  | .local _ .vmem, ⟨7, _⟩ => ⟨S1024x256, .f32⟩
  | .local _ .vmem, ⟨8, _⟩ => ⟨S10x256, .f32⟩
  | .local _ .vmem, ⟨9, _⟩ => ⟨S1x256, .f32⟩
  | .local _ .vmem, ⟨10, _⟩ => ⟨S256x256, .f32⟩
  | .local _ .vmem, ⟨11, _⟩ => ⟨S64x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S1024x512, .f32⟩
  | .local _ .vmem, ⟨22, _⟩ => ⟨S1024x512, .f32⟩
  | _, _ => ⟨S32768x10x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S32768x10x10_S32768x100 : S32768x10x10.ShapeCasts S32768x100
  shapeCasts_S32768_S32768x1 : S32768.ShapeCasts S32768x1
  shapeCasts_S256_S1x256 : S256.ShapeCasts S1x256
  slices_S320x256_S256x256_0_0 : S320x256.Slices ![0, 0] S256x256
  slices_S320x256_S64x256_256_0 : S320x256.Slices ![256, 0] S64x256
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  inb_S1024x10_S1024x10_0_0 : ∀ a, (![0, 0] : Fin 2 → Nat) a + S1024x10.size a ≤ S1024x10.size a
  h_S1024x10 : 0 < S1024x10.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S10x256_S10x256_0_0 : ∀ a, (![0, 0] : Fin 2 → Nat) a + S10x256.size a ≤ S10x256.size a
  h_S10x256 : 0 < S10x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S1024x64_d1_w32 : S1024x64.Iotas .tc 32 [1]
  slices_S1024x100_o0_0_S1024x10 : S1024x100.Slices ![0, 0] S1024x10
  broadcasts_S1x256_S1024x256 : S1x256.Broadcasts S1024x256
  slices_S1024x10_o0_0_S1024x1 : S1024x10.Slices ![0, 0] S1024x1
  broadcasts_S1024x1_S1024x64 : S1024x1.Broadcasts S1024x64
  natLt_1_32 : 1 < 32
  broadcasts_S1024x1_S1024x256 : S1024x1.Broadcasts S1024x256
  slices_S1024x100_o0_10_S1024x10 : S1024x100.Slices ![0, 10] S1024x10
  slices_S1024x10_o0_1_S1024x1 : S1024x10.Slices ![0, 1] S1024x1
  slices_S1024x100_o0_20_S1024x10 : S1024x100.Slices ![0, 20] S1024x10
  slices_S1024x10_o0_2_S1024x1 : S1024x10.Slices ![0, 2] S1024x1
  slices_S1024x100_o0_30_S1024x10 : S1024x100.Slices ![0, 30] S1024x10
  slices_S1024x10_o0_3_S1024x1 : S1024x10.Slices ![0, 3] S1024x1
  slices_S1024x100_o0_40_S1024x10 : S1024x100.Slices ![0, 40] S1024x10
  slices_S1024x10_o0_4_S1024x1 : S1024x10.Slices ![0, 4] S1024x1
  slices_S1024x100_o0_50_S1024x10 : S1024x100.Slices ![0, 50] S1024x10
  slices_S1024x10_o0_5_S1024x1 : S1024x10.Slices ![0, 5] S1024x1
  slices_S1024x100_o0_60_S1024x10 : S1024x100.Slices ![0, 60] S1024x10
  slices_S1024x10_o0_6_S1024x1 : S1024x10.Slices ![0, 6] S1024x1
  slices_S1024x100_o0_70_S1024x10 : S1024x100.Slices ![0, 70] S1024x10
  slices_S1024x10_o0_7_S1024x1 : S1024x10.Slices ![0, 7] S1024x1
  slices_S1024x100_o0_80_S1024x10 : S1024x100.Slices ![0, 80] S1024x10
  slices_S1024x10_o0_8_S1024x1 : S1024x10.Slices ![0, 8] S1024x1
  slices_S1024x100_o0_90_S1024x10 : S1024x100.Slices ![0, 90] S1024x10
  slices_S1024x10_o0_9_S1024x1 : S1024x10.Slices ![0, 9] S1024x1
  inb_S1024x256_S1024x256_0_0 : ∀ a, (![0, 0] : Fin 2 → Nat) a + S1024x256.size a ≤ S1024x256.size a
  h_S1024x256 : 0 < S1024x256.numel
  concatenates_S1024x256_S1024x256_S1024x512_d1 : Shape.Concatenates [S1024x256, S1024x256] S1024x512 1
  inb_S1024x512_S1024x512_0_0 : ∀ a, (![0, 0] : Fin 2 → Nat) a + S1024x512.size a ≤ S1024x512.size a
  h_S1024x512 : 0 < S1024x512.numel
  dot_S1024x10_S10x256_S1024x256_1_0_0_1_n_n_wf : DotDims.WF S1024x10 S10x256 S1024x256 [1] [0] [0] [1] [] []
  dot_S1024x256_S256x256_S1024x256_1_0_0_1_n_n_wf : DotDims.WF S1024x256 S256x256 S1024x256 [1] [0] [0] [1] [] []
  dot_S1024x64_S64x256_S1024x256_1_0_0_1_n_n_wf : DotDims.WF S1024x64 S64x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x100.size a ≤ S32768x100.size a
  hwx0_0 : ∀ i : grid0.Coords, EltTy.bits .f32 = 32 ∨ (Rect.block (s := S32768x100) S1024x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S32768x10.size a
  hwx0_1 : ∀ i : grid0.Coords, EltTy.bits .i32 = 32 ∨ (Rect.block (s := S32768x10) S1024x10.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x256.size a
  hwx0_16 : ∀ i : grid0.Coords, EltTy.bits .f32 = 32 ∨ (Rect.block (s := S1x256) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x512.size a ≤ S32768x512.size a
  hwx0_17 : ∀ i : grid0.Coords, EltTy.bits .f32 = 32 ∨ (Rect.block (s := S32768x512) S1024x512.size (cc0_transform_17 i) (hinb0_17 i)).WholeWords (EltTy.packing .f32)

variable [Facts₀]

def dot_S1024x10_S10x256_S1024x256_1_0_0_1_n_n : DotDims S1024x10 S10x256 S1024x256 where
  lhsContracting := [1]
  rhsContracting := [0]
  lhsNonContracting := [0]
  rhsNonContracting := [1]
  lhsBatch := []
  rhsBatch := []
  wf := dot_S1024x10_S10x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf

abbrev win0_0 : Pipeline.Window sig grid0 :=
  Pipeline.Window.ofSpec (Memref.whole main_v0) S1024x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg14) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S10x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10) S1024x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S32768x10x10 : Shape := ⟨3, ![32768, 10, 10]⟩
abbrev S32768x256 : Shape := ⟨2, ![32768, 256]⟩
abbrev S10x256 : Shape := ⟨2, ![10, 256]⟩
abbrev S256 : Shape := ⟨1, ![256]⟩
abbrev S320x256 : Shape := ⟨2, ![320, 256]⟩
abbrev S256x256 : Shape := ⟨2, ![256, 256]⟩
abbrev S32768x10 : Shape := ⟨2, ![32768, 10]⟩
abbrev S32768 : Shape := ⟨1, ![32768]⟩
abbrev S32768x10x256 : Shape := ⟨3, ![32768, 10, 256]⟩
abbrev S1x1x256 : Shape := ⟨3, ![1, 1, 256]⟩
abbrev S_ : Shape := ⟨0, ![]⟩
abbrev S32768x10x1 : Shape := ⟨3, ![32768, 10, 1]⟩
abbrev S1x1x64 : Shape := ⟨3, ![1, 1, 64]⟩
abbrev S32768x10x64 : Shape := ⟨3, ![32768, 10, 64]⟩
abbrev S32768x10x320 : Shape := ⟨3, ![32768, 10, 320]⟩
abbrev S10 : Shape := ⟨1, ![10]⟩
abbrev S32768x1 : Shape := ⟨2, ![32768, 1]⟩
abbrev S1x10 : Shape := ⟨2, ![1, 10]⟩
abbrev S1x256 : Shape := ⟨2, ![1, 256]⟩
abbrev S32768x512 : Shape := ⟨2, ![32768, 512]⟩

abbrev nBuf : Space → Nat
  | .hbm => 85
  | .vmem => 0
  | .smem => 0
  | _ => 0

abbrev bufTy : (tb : Table) → Fin (tcTables nBuf tb) → BufTy
  | .hbm, ⟨0, _⟩ => ⟨S32768x10x10, .f32⟩
  | .hbm, ⟨1, _⟩ => ⟨S32768x256, .f32⟩
  | .hbm, ⟨2, _⟩ => ⟨S10x256, .f32⟩
  | .hbm, ⟨3, _⟩ => ⟨S256, .f32⟩
  | .hbm, ⟨4, _⟩ => ⟨S320x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S32768x10, .i32⟩
  | .hbm, ⟨15, _⟩ => ⟨S32768, .i32⟩
  | .hbm, ⟨16, _⟩ => ⟨S32768x10x256, .f32⟩
  | .hbm, ⟨17, _⟩ => ⟨S1x1x256, .f32⟩
  | .hbm, ⟨18, _⟩ => ⟨S32768x10x256, .f32⟩
  | .hbm, ⟨19, _⟩ => ⟨S32768x10x256, .f32⟩
  | .hbm, ⟨20, _⟩ => ⟨S_, .f32⟩
  | .hbm, ⟨21, _⟩ => ⟨S32768x10x256, .f32⟩
  | .hbm, ⟨22, _⟩ => ⟨S32768x10x256, .f32⟩
  | .hbm, ⟨23, _⟩ => ⟨S32768x10x1, .i32⟩
  | .hbm, ⟨24, _⟩ => ⟨S1x1x64, .i32⟩
  | .hbm, ⟨25, _⟩ => ⟨S32768x10x64, .i32⟩
  | .hbm, ⟨26, _⟩ => ⟨S32768x10x64, .i32⟩
  | .hbm, ⟨27, _⟩ => ⟨S32768x10x64, .i1⟩
  | .hbm, ⟨28, _⟩ => ⟨S32768x10x64, .f32⟩
  | .hbm, ⟨29, _⟩ => ⟨S32768x10x320, .f32⟩
  | .hbm, ⟨30, _⟩ => ⟨S32768x10x256, .f32⟩
  | .hbm, ⟨31, _⟩ => ⟨S1x1x256, .f32⟩
  | .hbm, ⟨32, _⟩ => ⟨S32768x10x256, .f32⟩
  | .hbm, ⟨33, _⟩ => ⟨S32768x10x256, .f32⟩
  | .hbm, ⟨34, _⟩ => ⟨S_, .f32⟩
  | .hbm, ⟨35, _⟩ => ⟨S32768x10x256, .f32⟩
  | .hbm, ⟨36, _⟩ => ⟨S32768x10x256, .f32⟩
  | .hbm, ⟨37, _⟩ => ⟨S10, .i32⟩
  | .hbm, ⟨38, _⟩ => ⟨S32768x1, .i32⟩
  | .hbm, ⟨39, _⟩ => ⟨S1x10, .i32⟩
  | .hbm, ⟨40, _⟩ => ⟨S32768x10, .i32⟩
  | .hbm, ⟨41, _⟩ => ⟨S32768x10, .i32⟩
  | .hbm, ⟨42, _⟩ => ⟨S32768x10, .i1⟩
  | .hbm, ⟨43, _⟩ => ⟨S32768x10, .f32⟩
  | .hbm, ⟨44, _⟩ => ⟨S32768x10x1, .f32⟩
  | .hbm, ⟨45, _⟩ => ⟨S32768x10x256, .f32⟩
  | .hbm, ⟨46, _⟩ => ⟨S32768x10x256, .f32⟩
  | .hbm, ⟨47, _⟩ => ⟨S_, .f32⟩
  | .hbm, ⟨48, _⟩ => ⟨S32768x256, .f32⟩
  | .hbm, ⟨49, _⟩ => ⟨S32768x256, .f32⟩
  | .hbm, ⟨50, _⟩ => ⟨S1x256, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S1x256, .f32⟩
  | .hbm, ⟨58, _⟩ => ⟨S32768x256, .f32⟩
  | .hbm, ⟨59, _⟩ => ⟨S32768x256, .f32⟩
  | .hbm, ⟨60, _⟩ => ⟨S_, .f32⟩
  | .hbm, ⟨61, _⟩ => ⟨S32768x256, .f32⟩
  | .hbm, ⟨62, _⟩ => ⟨S32768x256, .f32⟩
  | .hbm, ⟨63, _⟩ => ⟨S32768x256, .f32⟩
  | .hbm, ⟨64, _⟩ => ⟨S1x256, .f32⟩
  | .hbm, ⟨65, _⟩ => ⟨S32768x256, .f32⟩
  | .hbm, ⟨66, _⟩ => ⟨S32768x256, .f32⟩
  | .hbm, ⟨67, _⟩ => ⟨S32768x256, .f32⟩
  | .hbm, ⟨68, _⟩ => ⟨S1x256, .f32⟩
  | .hbm, ⟨69, _⟩ => ⟨S32768x256, .f32⟩
  | .hbm, ⟨70, _⟩ => ⟨S32768x256, .f32⟩
  | .hbm, ⟨71, _⟩ => ⟨S_, .f32⟩
  | .hbm, ⟨72, _⟩ => ⟨S32768x256, .f32⟩
  | .hbm, ⟨73, _⟩ => ⟨S32768x256, .f32⟩
  | .hbm, ⟨74, _⟩ => ⟨S32768x256, .f32⟩
  | .hbm, ⟨75, _⟩ => ⟨S_, .f32⟩
  | .hbm, ⟨76, _⟩ => ⟨S32768x256, .f32⟩
  | .hbm, ⟨77, _⟩ => ⟨S32768x256, .f32⟩
  | .hbm, ⟨78, _⟩ => ⟨S32768x256, .f32⟩
  | .hbm, ⟨79, _⟩ => ⟨S32768x256, .f32⟩
  | .hbm, ⟨80, _⟩ => ⟨S32768x256, .f32⟩
  | .hbm, ⟨81, _⟩ => ⟨S32768x256, .f32⟩
  | .hbm, ⟨82, _⟩ => ⟨S32768x256, .f32⟩
  | .hbm, ⟨83, _⟩ => ⟨S32768x256, .f32⟩
  | .hbm, ⟨84, _⟩ => ⟨S32768x512, .f32⟩
  | _, _ => ⟨S32768x10x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call2_cst : Ref sig .tc := ⟨.hbm, 34, rfl⟩
abbrev main_call2_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_call3_cst : Ref sig .tc := ⟨.hbm, 53, rfl⟩
abbrev main_call3_v0 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call4_cst : Ref sig .tc := ⟨.hbm, 60, rfl⟩
abbrev main_call4_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32768x10x256_0_1_2 : S1x1x256.BroadcastsInDim S32768x10x256 (![0, 1, 2] : Fin 3 → Fin S32768x10x256.rank)
  bcast_S_S32768x10x256 : S_.BroadcastsInDim S32768x10x256 (![] : Fin 0 → Fin S32768x10x256.rank)
  bcast_S32768x10_S32768x10x1_0_1 : S32768x10.BroadcastsInDim S32768x10x1 (![0, 1] : Fin 2 → Fin S32768x10x1.rank)
  bcast_S32768x10x1_S32768x10x64_0_1_2 : S32768x10x1.BroadcastsInDim S32768x10x64 (![0, 1, 2] : Fin 3 → Fin S32768x10x64.rank)
  bcast_S1x1x64_S32768x10x64_0_1_2 : S1x1x64.BroadcastsInDim S32768x10x64 (![0, 1, 2] : Fin 3 → Fin S32768x10x64.rank)
  concatenates_S32768x10x256_S32768x10x64_S32768x10x320_d2 : Shape.Concatenates [S32768x10x256, S32768x10x64] S32768x10x320 2
  bcast_S32768_S32768x1_0 : S32768.BroadcastsInDim S32768x1 (![0] : Fin 1 → Fin S32768x1.rank)
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  bcast_S32768x1_S32768x10_0_1 : S32768x1.BroadcastsInDim S32768x10 (![0, 1] : Fin 2 → Fin S32768x10.rank)
  bcast_S32768x10x1_S32768x10x256_0_1_2 : S32768x10x1.BroadcastsInDim S32768x10x256 (![0, 1, 2] : Fin 3 → Fin S32768x10x256.rank)
  reducesTo_S32768x10x256_S32768x256_d1 : S32768x10x256.ReducesTo [1] S32768x256
  h_S_ : 0 < S_.numel
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  concatenates_S32768x256_S32768x256_S32768x512_d1 : Shape.Concatenates [S32768x256, S32768x256] S32768x512 1
  dot_S32768x10x10_S10x256_S32768x10x256_2_0_01_1_n_n_wf : DotDims.WF S32768x10x10 S10x256 S32768x10x256 [2] [0] [0, 1] [1] [] []
  dot_S32768x10x320_S320x256_S32768x10x256_2_0_01_1_n_n_wf : DotDims.WF S32768x10x320 S320x256 S32768x10x256 [2] [0] [0, 1] [1] [] []
  dot_S32768x256_S256x256_S32768x256_1_0_0_1_n_n_wf : DotDims.WF S32768x256 S256x256 S32768x256 [1] [0] [0] [1] [] []

variable [Facts₀]

def dot_S32768x10x10_S10x256_S32768x10x256_2_0_01_1_n_n : DotDims S32768x10x10 S10x256 S32768x10x256 where
  lhsContracting := [2]
  rhsContracting := [0]
  lhsNonContracting := [0, 1]
  rhsNonContracting := [1]
  lhsBatch := []
  rhsBatch := []
  wf := dot_S32768x10x10_S10x256_S32768x10x256_2_0_01_1_n_n_wf
def dot_S32768x10x320_S320x256_S32768x10x256_2_0_01_1_n_n : DotDims S32768x10x320 S320x256 S32768x10x256 where
  lhsContracting := [2]
  rhsContracting := [0]
  lhsNonContracting := [0, 1]
  rhsNonContracting := [1]
  lhsBatch := []
  rhsBatch := []
  wf := dot_S32768x10x320_S320x256_S32768x10x256_2_0_01_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf

class Facts : Prop extends Facts₀ where

variable [Facts]
-- ==== Proof.LibRunningMax.lean ====
/-
  A running maximum started from zero, against the maximum of a whole finite family started from −∞.

  Max-pooling a family `v 0, …, v n` of extended reals can be written two ways: as the fold of `max` over the
  family from the bottom element `⊥` (a reduction whose neutral element is −∞), or as an accumulator that
  starts at `0` and takes `max` with each member in turn. The second never goes below `0`, so the two agree
  exactly when the family's maximum is non-negative, and for that one non-negative member is enough.
-/
import Mathlib.Data.EReal.Basic
import Mathlib.Data.Finset.Fold
import Mathlib.Data.Fintype.Basic
import Mathlib.Data.Fin.Basic

noncomputable section

namespace Cert.Lib.RunningMax

/-- The accumulator after `n` steps: `0`, then `max` with `v 0`, …, `v (n-1)` in this order. -/
def runMax : (n : ℕ) → (Fin n → EReal) → EReal
  | 0, _ => 0
  | n + 1, v => max (runMax n fun i => v i.castSucc) (v (Fin.last n))

/-- The accumulator dominates every member it has met. -/
theorem le_runMax : ∀ (n : ℕ) (v : Fin n → EReal) (i : Fin n), v i ≤ runMax n v
  | 0, _, i => i.elim0
  | n + 1, v, i => by
    refine Fin.lastCases ?_ (fun j => ?_) i
    · exact le_max_right _ _
    · exact le_max_of_le_left (le_runMax n (fun i => v i.castSucc) j)

/-- Any non-negative bound of the family bounds the accumulator. -/
theorem runMax_le : ∀ (n : ℕ) (v : Fin n → EReal) (c : EReal), 0 ≤ c → (∀ i, v i ≤ c) → runMax n v ≤ c
  | 0, _, _, h0, _ => h0
  | n + 1, v, c, h0, h => max_le (runMax_le n _ c h0 fun _ => h _) (h _)

/-- With a non-negative first member, the zero-started accumulator over `v 0, …, v n` is the maximum of the
    family taken from `⊥`: each bounds the other. -/
theorem runMax_eq_fold (n : ℕ) (v : Fin (n + 1) → EReal) (h0 : 0 ≤ v 0) :
    runMax (n + 1) v = (Finset.univ : Finset (Fin (n + 1))).fold max ⊥ v := by
  apply le_antisymm
  · refine runMax_le _ _ _ ?_ fun i => ?_
    · exact (Finset.le_fold_max _).2 (Or.inr ⟨0, Finset.mem_univ _, h0⟩)
    · exact (Finset.le_fold_max _).2 (Or.inr ⟨i, Finset.mem_univ _, le_refl _⟩)
  · exact (Finset.fold_max_le _).2 ⟨bot_le, fun i _ => le_runMax _ _ i⟩

end Cert.Lib.RunningMax

end
-- ==== Proof.LibOneBit.lean ====
/-
  One-bit words as the numbers 0 and 1.

  A comparison of integers yields a one-bit word. Turned into a float it becomes the indicator of the
  comparison, and there are two routes: read the bit itself as an unsigned integer, or first widen it to
  32 bits with zeros and then read that word as a signed integer. Both give 0 for the zero bit and 1 for the
  set bit (the widened word's sign bit is clear). A non-negative extended real times such an indicator stays
  non-negative.
-/
import Mathlib.Data.EReal.Basic

noncomputable section

namespace Cert.Lib.OneBit

/-- The indicator a one-bit word denotes: its value as an unsigned integer, 0 or 1, as an extended real. -/
def val01 (b : BitVec 1) : EReal := ((b.toNat : ℝ) : EReal)

/-- Widening a bit to 32 bits with zeros and reading the word signed gives the bit's unsigned value. -/
theorem toInt_setWidth32 (b : BitVec 1) : (b.setWidth 32).toInt = (b.toNat : ℤ) := by
  rcases BitVec.eq_zero_or_eq_one b with rfl | rfl <;> decide

/-- So the signed reading of the widened bit, as an extended real, is the indicator. -/
theorem signed_of_widened (b : BitVec 1) : (((b.setWidth 32).toInt : ℝ) : EReal) = val01 b := by
  unfold val01
  rw [toInt_setWidth32, Int.cast_natCast]

/-- An indicator is 0 or 1. -/
theorem val01_cases (b : BitVec 1) : val01 b = 0 ∨ val01 b = 1 := by
  rcases BitVec.eq_zero_or_eq_one b with rfl | rfl
  · left; simp [val01]
  · right; simp [val01]

/-- A non-negative extended real times an indicator is non-negative. -/
theorem mul_val01_nonneg {x : EReal} (hx : 0 ≤ x) (b : BitVec 1) : 0 ≤ x * val01 b := by
  rcases val01_cases b with h | h <;> rw [h]
  · rw [mul_zero]
  · rw [mul_one]; exact hx

end Cert.Lib.OneBit

end
-- ==== Proof.Net.lean ====
/-
  The network one row of the batch goes through, as plain functions of extended reals.

  A parent node has ten child slots. Each child `m` carries ten box numbers `X m`, a semantic label `S m`
  (an integer; its one-hot code has 64 entries) and is present when `m` is below the parent's child count `n`.
  A child's feature vector is `relu (relu (X m · W_box + b_box) · W1a + onehot (S m) · W1b + b1)`; absent children are
  zeroed, and the parent pools the ten vectors by an entrywise maximum. Three dense layers follow (two with
  relu), the last two giving a mean `μ` and a log-variance `λ`; the row of results is `ε · exp (λ / 2) + μ` followed
  by `1 + λ - μ² - exp λ`.

  The pooling is written here as an accumulator started at zero (`runMax`), and the child layer's product with
  the 320-row matrix `W1` as the sum of its first 256 rows against the box features and its last 64 rows
  against the one-hot code. The last part of the file shows that the other way of writing both — one sum
  over all 320 rows of the joined vector, and a maximum taken from −∞ — gives the same numbers: a sum over
  `Fin (256 + 64)` splits in two, and every pooled term is a relu times an indicator, hence non-negative.
-/
import Idealize.ShloMosaic.PureOps.Ideal
import proofs.«129964_j46153718563045_2_alg».proof.Proof.LibRunningMax
import proofs.«129964_j46153718563045_2_alg».proof.Proof.LibOneBit

noncomputable section

open scoped BigOperators

namespace Cert.Net

open Idealize.ShloMosaic Cert.Lib.RunningMax Cert.Lib.OneBit

/-- `max z 0`. -/
def relu (z : EReal) : EReal := max z 0

theorem relu_nonneg (z : EReal) : 0 ≤ relu z := le_max_right _ _

/-- An affine form: the dot product of `x` with one column `w` of a weight matrix, plus that column's bias. -/
def aff {K : ℕ} (x w : Fin K → EReal) (b : EReal) : EReal := (∑ k, x k * w k) + b

/-- Entry `k` of the one-hot code of label `s`: the indicator of `s = k`. -/
def hot (s : BitVec 32) (k : Fin 64) : EReal := val01 (IntOp.cmpi .eq s (BitVec.ofNat 32 k.val))

/-- The indicator that child slot `m` is occupied: `m` below the child count `n`, as signed integers. -/
def here (n : BitVec 32) (m : ℕ) : EReal := val01 (IntOp.cmpi .sgt n (BitVec.ofNat 32 m))

/-! ## The child layers and the pooling -/

/-- The weights and biases of the two child layers, entry by entry. -/
structure Child where
  Wb : Fin 10 → Fin 256 → EReal
  bb : Fin 256 → EReal
  W1a : Fin 256 → Fin 256 → EReal
  W1b : Fin 64 → Fin 256 → EReal
  b1 : Fin 256 → EReal

variable (C : Child)

/-- A child's box features: `relu (X · W_box + b_box)`. -/
def leaf (X : Fin 10 → EReal) (f : Fin 256) : EReal := relu (aff X (fun i => C.Wb i f) (C.bb f))

/-- A child's feature vector before masking, with the 320-row product split at row 256. -/
def feat (X : Fin 10 → EReal) (s : BitVec 32) (h : Fin 256) : EReal :=
  relu ((∑ f, leaf C X f * C.W1a f h + ∑ k, hot s k * C.W1b k h) + C.b1 h)

/-- A child's masked feature vector: zero when the slot is empty. -/
def term (X : Fin 10 → EReal) (s n : BitVec 32) (m : ℕ) (h : Fin 256) : EReal := feat C X s h * here n m

theorem term_nonneg (X : Fin 10 → EReal) (s n : BitVec 32) (m : ℕ) (h : Fin 256) : 0 ≤ term C X s n m h :=
  mul_val01_nonneg (relu_nonneg _) _

/-- The pooled vector: the zero-started running maximum over the ten slots. -/
def pooled (X : Fin 10 → Fin 10 → EReal) (S : Fin 10 → BitVec 32) (n : BitVec 32) (h : Fin 256) : EReal :=
  runMax 10 fun m => term C (X m) (S m) n m.val h

/-! ## The layers after the pooling -/

/-- The weights and biases of the four dense layers after the pooling, entry by entry. -/
structure Head where
  W2 : Fin 256 → Fin 256 → EReal
  b2 : Fin 256 → EReal
  Ws1 : Fin 256 → Fin 256 → EReal
  bs1 : Fin 256 → EReal
  Wmu : Fin 256 → Fin 256 → EReal
  bmu : Fin 256 → EReal
  Wvar : Fin 256 → Fin 256 → EReal
  bvar : Fin 256 → EReal

variable (Q : Head)

/-- The parent's feature vector, from the pooled vector `x`. -/
def parent (x : Fin 256 → EReal) (f : Fin 256) : EReal := relu (aff x (fun h => Q.W2 h f) (Q.b2 f))

/-- The sampler's hidden layer. -/
def enc (x : Fin 256 → EReal) (h : Fin 256) : EReal := relu (aff (parent Q x) (fun f => Q.Ws1 f h) (Q.bs1 h))

/-- The mean. -/
def mu (x : Fin 256 → EReal) (f : Fin 256) : EReal := aff (enc Q x) (fun h => Q.Wmu h f) (Q.bmu f)

/-- The log-variance. -/
def logvar (x : Fin 256 → EReal) (f : Fin 256) : EReal := aff (enc Q x) (fun h => Q.Wvar h f) (Q.bvar f)

/-- The sample `ε · exp (λ / 2) + μ`, the one half being the float `0.5`. -/
def sample (x : Fin 256 → EReal) (E : Fin 256 → EReal) (f : Fin 256) : EReal :=
  E f * Ideal.exp (Ideal.ofBits .f32 0x3F000000#32 * logvar Q x f) + mu Q x f

/-- The divergence term `1 + λ - μ² - exp λ`, the one being the float `1.0`. -/
def kld (x : Fin 256 → EReal) (f : Fin 256) : EReal :=
  (Ideal.ofBits .f32 0x3F800000#32 + logvar Q x f - mu Q x f * mu Q x f) - Ideal.exp (logvar Q x f)

/-- The row of 512 results: the 256 samples, then the 256 divergence terms. -/
def rowOut (x : Fin 256 → EReal) (E : Fin 256 → EReal) (j : Fin 512) : EReal :=
  if h : j.val < 256 then sample Q x E ⟨j.val, h⟩ else kld Q x ⟨j.val - 256, by have := j.isLt; omega⟩

/-! ## The other spelling of the child layer and of the pooling -/

/-- The joined vector of a child: its 256 box features, then its 64 one-hot entries. -/
def joined (X : Fin 10 → EReal) (s : BitVec 32) (j : Fin (256 + 64)) : EReal :=
  Fin.addCases (fun f => leaf C X f) (fun k => hot s k) j

/-- The 320-row matrix whose first 256 rows are `W1a` and last 64 rows `W1b`. -/
def W1 (j : Fin (256 + 64)) (h : Fin 256) : EReal := Fin.addCases (fun f => C.W1a f h) (fun k => C.W1b k h) j

/-- One sum over the 320 joined entries is the two partial sums. -/
theorem sum_joined (X : Fin 10 → EReal) (s : BitVec 32) (h : Fin 256) :
    ∑ j : Fin (256 + 64), joined C X s j * W1 C j h = ∑ f, leaf C X f * C.W1a f h + ∑ k, hot s k * C.W1b k h := by
  rw [Fin.sum_univ_add]
  simp only [joined, W1, Fin.addCases_left, Fin.addCases_right]

/-- The maximum of the ten masked vectors taken from −∞ is the zero-started running maximum: slot 0's term is
    non-negative. -/
theorem fold_terms (X : Fin 10 → Fin 10 → EReal) (S : Fin 10 → BitVec 32) (n : BitVec 32) (h : Fin 256) :
    (Finset.univ : Finset (Fin 10)).fold max ⊥ (fun m => term C (X m) (S m) n m.val h) = pooled C X S n h :=
  (runMax_eq_fold 9 _ (term_nonneg C _ _ _ _ _)).symm

end Cert.Net

end
-- ==== Proof.Spec.lean ====
/-
  The result array as one function of the sixteen argument arrays.

  Row `R` of the result depends on row `R` of the boxes (ten children of ten numbers), of the labels, of the child
  counts and of the noise, and on the shared weights: it is the result row of Net.lean for those data. The
  320-row child matrix enters through its first 256 and its last 64 rows.
-/
import Idealize.ShloMosaic.Lib.ValueIdx
import proofs.«129964_j46153718563045_2_alg».proof.Proof.Net

noncomputable section

namespace Cert.Spec

open Idealize.ShloMosaic Idealize.ShloMosaic.ValueIdx Cert.Net

/-- The child layers' weights and biases as the argument arrays hold them. -/
def childArr (a2 : (⟨2, ![10, 256]⟩ : Shape).Idx → EReal) (a3 : (⟨1, ![256]⟩ : Shape).Idx → EReal)
    (a4 : (⟨2, ![320, 256]⟩ : Shape).Idx → EReal) (a5 : (⟨1, ![256]⟩ : Shape).Idx → EReal) : Child :=
  ⟨fun i f => a2 (ix2 i f), fun f => a3 (ix1 f),
   fun f h => a4 (ix2 (⟨f.val, by have := f.isLt; omega⟩ : Fin 320) h),
   fun k h => a4 (ix2 (⟨256 + k.val, by have := k.isLt; omega⟩ : Fin 320) h),
   fun h => a5 (ix1 h)⟩

/-- The later layers' weights and biases as the argument arrays hold them. -/
def headArr (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 : (⟨1, ![256]⟩ : Shape).Idx → EReal)
    (a12 : (⟨2, ![256, 256]⟩ : Shape).Idx → EReal) (a13 : (⟨1, ![256]⟩ : Shape).Idx → EReal) : Head :=
  ⟨fun h f => a6 (ix2 h f), fun f => a7 (ix1 f), fun f h => a8 (ix2 f h), fun h => a9 (ix1 h),
   fun h f => a10 (ix2 h f), fun f => a11 (ix1 f), fun h f => a12 (ix2 h f), fun f => a13 (ix1 f)⟩

/-- Row `R`, entry `j` of the result. -/
def Grow (a0 : (⟨3, ![32768, 10, 10]⟩ : Shape).Idx → EReal) (a1 : (⟨2, ![32768, 256]⟩ : Shape).Idx → EReal)
    (a2 : (⟨2, ![10, 256]⟩ : Shape).Idx → EReal) (a3 : (⟨1, ![256]⟩ : Shape).Idx → EReal)
    (a4 : (⟨2, ![320, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 : (⟨1, ![256]⟩ : Shape).Idx → EReal)
    (a12 : (⟨2, ![256, 256]⟩ : Shape).Idx → EReal) (a13 : (⟨1, ![256]⟩ : Shape).Idx → EReal)
    (a14 : (⟨2, ![32768, 10]⟩ : Shape).Idx → BitVec 32) (a15 : (⟨1, ![32768]⟩ : Shape).Idx → BitVec 32)
    (R : Fin 32768) (j : Fin 512) : EReal :=
  rowOut (headArr a6 a7 a8 a9 a10 a11 a12 a13)
    (pooled (childArr a2 a3 a4 a5) (fun m k => a0 (ix3 R m k)) (fun m => a14 (ix2 R m)) (a15 (ix1 R)))
    (fun f => a1 (ix2 R f)) j

/-- The result array, index by index. -/
def G (a0 : (⟨3, ![32768, 10, 10]⟩ : Shape).Idx → EReal) (a1 : (⟨2, ![32768, 256]⟩ : Shape).Idx → EReal)
    (a2 : (⟨2, ![10, 256]⟩ : Shape).Idx → EReal) (a3 : (⟨1, ![256]⟩ : Shape).Idx → EReal)
    (a4 : (⟨2, ![320, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 256]⟩ : Shape).Idx → EReal) (a9 : (⟨1, ![256]⟩ : Shape).Idx → EReal)
    (a10 : (⟨2, ![256, 256]⟩ : Shape).Idx → EReal) (a11 : (⟨1, ![256]⟩ : Shape).Idx → EReal)
    (a12 : (⟨2, ![256, 256]⟩ : Shape).Idx → EReal) (a13 : (⟨1, ![256]⟩ : Shape).Idx → EReal)
    (a14 : (⟨2, ![32768, 10]⟩ : Shape).Idx → BitVec 32) (a15 : (⟨1, ![32768]⟩ : Shape).Idx → BitVec 32) :
    (⟨2, ![32768, 512]⟩ : Shape).Idx → EReal :=
  fun i => Grow a0 a1 a2 a3 a4 a5 a6 a7 a8 a9 a10 a11 a12 a13 a14 a15 ⟨(i 0).val, idx2_lt0 i⟩ ⟨(i 1).val, idx2_lt1 i⟩

end Cert.Spec

end
-- ==== Proof.RefIsG.lean ====
/-
  The reference program's result is the array `G` of Spec.lean.

  The reference computes the child layers for all ten children of a row at once, on arrays of rank three:
  entry `(R, m, ·)` of such an array belongs to child `m` of row `R`. It joins the box features and the one-hot
  code into one vector of 320 entries and multiplies by the whole matrix `W1`; it masks, and pools by a maximum
  over the child axis started from −∞. Read entry by entry these are the joined sum and the folded maximum of
  Net.lean, which equal the split sum and the zero-started running maximum that `G` is written with. The
  layers after the pooling are the same affine forms on both sides.
-/
import proofs.«129964_j46153718563045_2_alg».proof.Proof.RefRead
import proofs.«129964_j46153718563045_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Net Cert.Spec Cert.Lib.OneBit

variable (a0 : (⟨S32768x10x10, .f32⟩ : BufTy).Contents (Elt Ideal)) (a1 : (⟨S32768x256, .f32⟩ : BufTy).Contents (Elt Ideal))
  (a2 : (⟨S10x256, .f32⟩ : BufTy).Contents (Elt Ideal)) (a3 : (⟨S256, .f32⟩ : BufTy).Contents (Elt Ideal))
  (a4 : (⟨S320x256, .f32⟩ : BufTy).Contents (Elt Ideal)) (a5 : (⟨S256, .f32⟩ : BufTy).Contents (Elt Ideal))
  (a6 : (⟨S256x256, .f32⟩ : BufTy).Contents (Elt Ideal)) (a7 : (⟨S256, .f32⟩ : BufTy).Contents (Elt Ideal))
  (a8 : (⟨S256x256, .f32⟩ : BufTy).Contents (Elt Ideal)) (a9 : (⟨S256, .f32⟩ : BufTy).Contents (Elt Ideal))
  (a10 : (⟨S256x256, .f32⟩ : BufTy).Contents (Elt Ideal)) (a11 : (⟨S256, .f32⟩ : BufTy).Contents (Elt Ideal))
  (a12 : (⟨S256x256, .f32⟩ : BufTy).Contents (Elt Ideal)) (a13 : (⟨S256, .f32⟩ : BufTy).Contents (Elt Ideal))
  (a14 : (⟨S32768x10, .i32⟩ : BufTy).Contents (Elt Ideal)) (a15 : (⟨S32768, .i32⟩ : BufTy).Contents (Elt Ideal))

/-- The zero and the −∞ the program's constants denote. -/
theorem ofBits_neg_inf : Ideal.ofBits .f32 0xFF800000#32 = (⊥ : EReal) := by simp [Ideal.ofBits, Ideal.ieee]

/-! ## The child layers, at child `m` of row `R` -/

/-- The box features. -/
theorem leaf_at (R : Fin 32768) (m : Fin 10) (f : Fin 256) :
    val_main_v4 (F := Ideal) a0 a2 a3 (ix3 R m f) = leaf (childArr a2 a3 a4 a5) (fun i => a0 (ix3 R m i)) f := by
  have el : ∀ k : Fin 10, lidx_main_v0 (ix3 R m f) k = ix3 R m k := fun k =>
    funext fun a => by match a with | ⟨0, _⟩ => rfl | ⟨1, _⟩ => rfl | ⟨2, _⟩ => rfl
  have er : ∀ k : Fin 10, ridx_main_v0 (ix3 R m f) k = ix2 k f := fun k =>
    funext fun a => by match a with | ⟨0, _⟩ => rfl | ⟨1, _⟩ => rfl
  have eb : idx_main_v1 (idx_main_v2 (ix3 R m f)) = ix1 f := funext fun a => by match a with | ⟨0, _⟩ => rfl
  rw [val_main_v4_apply, val_main_v3_apply, val_main_v0_apply, val_main_v2_apply, val_main_v1_apply, val_main_call0_v0_apply,
    val_main_call0_cst_apply, eb]
  simp only [el, er]
  show max (_ + _) (Ideal.ofBits .f32 0x00000000#32) = _
  rw [Ideal.ofBits_zero_f32]
  rfl

/-- The one-hot code. -/
theorem hot_at (R : Fin 32768) (m : Fin 10) (k : Fin 64) :
    val_main_v5 (F := Ideal) a14 (ix3 R m k) = hot (a14 (ix2 R m)) k := by
  have e1 : idx_main_call1_v0 (idx_main_call1_v2 (ix3 R m k)) = ix2 R m := funext fun a => by match a with | ⟨0, _⟩ => rfl | ⟨1, _⟩ => rfl
  rw [val_main_v5_apply, val_main_call1_v4_apply, val_main_call1_v2_apply, val_main_call1_v0_apply, val_main_call1_v3_apply,
    val_main_call1_v1_apply, e1]
  rfl

/-- The joined vector: box features in its first 256 entries, the one-hot code in its last 64. -/
theorem joined_at (R : Fin 32768) (m : Fin 10) (j : Fin (256 + 64)) :
    val_main_v6 (F := Ideal) a0 a2 a3 a14 (ix3 R m (⟨j.val, j.isLt⟩ : Fin 320))
      = joined (childArr a2 a3 a4 a5) (fun i => a0 (ix3 R m i)) (a14 (ix2 R m)) j := by
  unfold val_main_v6 joined
  refine Fin.addCases (fun f => ?_) (fun k => ?_) j
  · rw [Fin.addCases_left]
    refine (concatenate_pair_apply_left 2 _ _ concatenates_S32768x10x256_S32768x10x64_S32768x10x320_d2 _ rfl (ix3 R m f)
      (fun b => by match b with | ⟨0, _⟩ => rfl | ⟨1, _⟩ => rfl | ⟨2, _⟩ => rfl)).trans ?_
    exact leaf_at a0 a2 a3 a4 a5 R m f
  · rw [Fin.addCases_right]
    refine (concatenate_pair_apply_right 2 _ _ concatenates_S32768x10x256_S32768x10x64_S32768x10x320_d2 _ rfl rfl (ix3 R m k)
      (fun b hb => by
        match b with
        | ⟨0, _⟩ => rfl
        | ⟨1, _⟩ => rfl
        | ⟨2, _⟩ => exact absurd rfl hb)
      (by show k.val + 256 = 256 + k.val; omega)).trans ?_
    exact hot_at a14 R m k

/-- Row `j` of the 320-row matrix, split at 256. -/
theorem W1_at (j : Fin (256 + 64)) (h : Fin 256) :
    a4 (ix2 (⟨j.val, j.isLt⟩ : Fin 320) h) = W1 (childArr a2 a3 a4 a5) j h := by
  unfold W1
  refine Fin.addCases (fun f => ?_) (fun k => ?_) j
  · rw [Fin.addCases_left]; rfl
  · rw [Fin.addCases_right]; rfl

/-- The child's feature vector before masking. -/
theorem feat_at (R : Fin 32768) (m : Fin 10) (h : Fin 256) :
    val_main_v11 (F := Ideal) a0 a2 a3 a4 a5 a14 (ix3 R m h) = feat (childArr a2 a3 a4 a5) (fun i => a0 (ix3 R m i)) (a14 (ix2 R m)) h := by
  have el : ∀ k : Fin 320, lidx_main_v7 (ix3 R m h) k = ix3 R m k := fun k =>
    funext fun a => by match a with | ⟨0, _⟩ => rfl | ⟨1, _⟩ => rfl | ⟨2, _⟩ => rfl
  have er : ∀ k : Fin 320, ridx_main_v7 (ix3 R m h) k = ix2 k h := fun k =>
    funext fun a => by match a with | ⟨0, _⟩ => rfl | ⟨1, _⟩ => rfl
  have eb : idx_main_v8 (idx_main_v9 (ix3 R m h)) = ix1 h := funext fun a => by match a with | ⟨0, _⟩ => rfl
  rw [val_main_v11_apply, val_main_v10_apply, val_main_v7_apply, val_main_v9_apply, val_main_v8_apply, val_main_call2_v0_apply,
    val_main_call2_cst_apply, eb]
  simp only [el, er]
  show max (_ + _) (Ideal.ofBits .f32 0x00000000#32) = _
  rw [Ideal.ofBits_zero_f32]
  unfold feat
  rw [← sum_joined]
  refine congrArg (fun s => max (s + _) 0) ?_
  show ∑ k : Fin (256 + 64), _ = _
  refine Finset.sum_congr rfl fun j _ => ?_
  rw [← joined_at a0 a2 a3 a4 a5 a14 R m j, ← W1_at a2 a3 a4 a5 j h]

/-- The mask. -/
theorem here_at (R : Fin 32768) (m : Fin 10) (h : Fin 256) :
    val_main_v20 (F := Ideal) a15 (ix3 R m h) = here (a15 (ix1 R)) m.val := by
  have e1 : idx_main_v19 (idx_main_v20 (ix3 R m h)) = ix2 R m := funext fun a => by match a with | ⟨0, _⟩ => rfl | ⟨1, _⟩ => rfl
  have e2 : idx_main_v13 (idx_main_v16 (ix2 R m)) = ix1 R := funext fun a => by match a with | ⟨0, _⟩ => rfl
  rw [val_main_v20_apply, val_main_v19_apply, val_main_v18_apply, val_main_v17_apply, e1, val_main_v15_apply, val_main_v14_apply,
    val_main_v12_apply, val_main_v16_apply, val_main_v13_apply, e2]
  rfl

/-- The masked feature vector. -/
theorem term_at (R : Fin 32768) (m : Fin 10) (h : Fin 256) :
    val_main_v21 (F := Ideal) a0 a2 a3 a4 a5 a14 a15 (ix3 R m h)
      = term (childArr a2 a3 a4 a5) (fun i => a0 (ix3 R m i)) (a14 (ix2 R m)) (a15 (ix1 R)) m.val h := by
  rw [val_main_v21_apply, feat_at, here_at]
  rfl

/-! ## The pooling -/

/-- The index the reduction over the child axis inserts: `(R, h)` with child `m` put back is `(R, m, h)`. -/
theorem lift_child (hr : S32768x10x256.Reduces [1] S32768x256) (R : Fin 32768) (h : Fin 256) (m : Fin (S32768x10x256.size 1)) :
    hr.lift (ix2 R h) m = ix3 R (⟨m.val, m.isLt⟩ : Fin 10) h := by
  funext c; apply Fin.ext
  fin_cases c <;> rfl

/-- The pooled vector: the maximum over the ten children from −∞ is the zero-started running maximum. -/
theorem pooled_at (R : Fin 32768) (h : Fin 256) :
    val_main_v22 (F := Ideal) a0 a2 a3 a4 a5 a14 a15 (ix2 R h)
      = pooled (childArr a2 a3 a4 a5) (fun m k => a0 (ix3 R m k)) (fun m => a14 (ix2 R m)) (a15 (ix1 R)) h := by
  have hr : S32768x10x256.Reduces [1] S32768x256 := by decide
  unfold val_main_v22
  rw [Host.reduce_eq_fold_single FloatOps.maximumf _ _ reducesTo_S32768x10x256_S32768x256_d1 hr h_S_]
  rw [← fold_terms]
  have hf : (val_main_v21 (F := Ideal) a0 a2 a3 a4 a5 a14 a15 ∘ hr.lift (ix2 R h))
      = fun m : Fin 10 => term (childArr a2 a3 a4 a5) (fun i => a0 (ix3 R m i)) (a14 (ix2 R m)) (a15 (ix1 R)) m.val h :=
    funext fun m => by
      show val_main_v21 (F := Ideal) a0 a2 a3 a4 a5 a14 a15 (hr.lift (ix2 R h) m) = _
      rw [lift_child hr R h m]
      exact term_at a0 a2 a3 a4 a5 a14 a15 R ⟨m.val, m.isLt⟩ h
  have hi : val_main_cst (F := Ideal) (Shape.Idx.first h_S_) = (⊥ : EReal) := ofBits_neg_inf
  rw [hi]
  exact congrArg (fun g => Finset.fold max (⊥ : EReal) g (Finset.univ : Finset (Fin 10))) hf

/-! ## The layers after the pooling -/

/-- The parent's feature vector. -/
theorem parent_at (R : Fin 32768) (f : Fin 256) :
    val_main_v27 (F := Ideal) a0 a2 a3 a4 a5 a6 a7 a14 a15 (ix2 R f)
      = parent (headArr a6 a7 a8 a9 a10 a11 a12 a13)
          (pooled (childArr a2 a3 a4 a5) (fun m k => a0 (ix3 R m k)) (fun m => a14 (ix2 R m)) (a15 (ix1 R))) f := by
  have el : ∀ k : Fin 256, lidx_main_v23 (ix2 R f) k = ix2 R k := fun k => funext fun a => by match a with | ⟨0, _⟩ => rfl | ⟨1, _⟩ => rfl
  have er : ∀ k : Fin 256, ridx_main_v23 (ix2 R f) k = ix2 k f := fun k => funext fun a => by match a with | ⟨0, _⟩ => rfl | ⟨1, _⟩ => rfl
  have eb : idx_main_v24 (idx_main_v25 (ix2 R f)) = ix1 f := funext fun a => by match a with | ⟨0, _⟩ => rfl
  rw [val_main_v27_apply, val_main_v26_apply, val_main_v23_apply, val_main_v25_apply, val_main_v24_apply, val_main_call3_v0_apply,
    val_main_call3_cst_apply, eb]
  simp only [el, er, pooled_at]
  show max (_ + _) (Ideal.ofBits .f32 0x00000000#32) = _
  rw [Ideal.ofBits_zero_f32]
  rfl

/-- The sampler's hidden layer. -/
theorem enc_at (R : Fin 32768) (h : Fin 256) :
    val_main_v32 (F := Ideal) a0 a2 a3 a4 a5 a6 a7 a8 a9 a14 a15 (ix2 R h)
      = enc (headArr a6 a7 a8 a9 a10 a11 a12 a13)
          (pooled (childArr a2 a3 a4 a5) (fun m k => a0 (ix3 R m k)) (fun m => a14 (ix2 R m)) (a15 (ix1 R))) h := by
  have el : ∀ k : Fin 256, lidx_main_v28 (ix2 R h) k = ix2 R k := fun k => funext fun a => by match a with | ⟨0, _⟩ => rfl | ⟨1, _⟩ => rfl
  have er : ∀ k : Fin 256, ridx_main_v28 (ix2 R h) k = ix2 k h := fun k => funext fun a => by match a with | ⟨0, _⟩ => rfl | ⟨1, _⟩ => rfl
  have eb : idx_main_v29 (idx_main_v30 (ix2 R h)) = ix1 h := funext fun a => by match a with | ⟨0, _⟩ => rfl
  rw [val_main_v32_apply, val_main_v31_apply, val_main_v28_apply, val_main_v30_apply, val_main_v29_apply, val_main_call4_v0_apply,
    val_main_call4_cst_apply, eb]
  simp only [el, er, parent_at a0 a2 a3 a4 a5 a6 a7 a8 a9 a10 a11 a12 a13 a14 a15]
  show max (_ + _) (Ideal.ofBits .f32 0x00000000#32) = _
  rw [Ideal.ofBits_zero_f32]
  rfl

/-- The mean. -/
theorem mu_at (R : Fin 32768) (f : Fin 256) :
    val_main_v36 (F := Ideal) a0 a2 a3 a4 a5 a6 a7 a8 a9 a10 a11 a14 a15 (ix2 R f)
      = mu (headArr a6 a7 a8 a9 a10 a11 a12 a13)
          (pooled (childArr a2 a3 a4 a5) (fun m k => a0 (ix3 R m k)) (fun m => a14 (ix2 R m)) (a15 (ix1 R))) f := by
  have el : ∀ k : Fin 256, lidx_main_v33 (ix2 R f) k = ix2 R k := fun k => funext fun a => by match a with | ⟨0, _⟩ => rfl | ⟨1, _⟩ => rfl
  have er : ∀ k : Fin 256, ridx_main_v33 (ix2 R f) k = ix2 k f := fun k => funext fun a => by match a with | ⟨0, _⟩ => rfl | ⟨1, _⟩ => rfl
  have eb : idx_main_v34 (idx_main_v35 (ix2 R f)) = ix1 f := funext fun a => by match a with | ⟨0, _⟩ => rfl
  rw [val_main_v36_apply, val_main_v33_apply, val_main_v35_apply, val_main_v34_apply, eb]
  simp only [el, er, enc_at a0 a2 a3 a4 a5 a6 a7 a8 a9 a10 a11 a12 a13 a14 a15]
  rfl

/-- The log-variance. -/
theorem logvar_at (R : Fin 32768) (f : Fin 256) :
    val_main_v40 (F := Ideal) a0 a2 a3 a4 a5 a6 a7 a8 a9 a12 a13 a14 a15 (ix2 R f)
      = logvar (headArr a6 a7 a8 a9 a10 a11 a12 a13)
          (pooled (childArr a2 a3 a4 a5) (fun m k => a0 (ix3 R m k)) (fun m => a14 (ix2 R m)) (a15 (ix1 R))) f := by
  have el : ∀ k : Fin 256, lidx_main_v37 (ix2 R f) k = ix2 R k := fun k => funext fun a => by match a with | ⟨0, _⟩ => rfl | ⟨1, _⟩ => rfl
  have er : ∀ k : Fin 256, ridx_main_v37 (ix2 R f) k = ix2 k f := fun k => funext fun a => by match a with | ⟨0, _⟩ => rfl | ⟨1, _⟩ => rfl
  have eb : idx_main_v38 (idx_main_v39 (ix2 R f)) = ix1 f := funext fun a => by match a with | ⟨0, _⟩ => rfl
  rw [val_main_v40_apply, val_main_v37_apply, val_main_v39_apply, val_main_v38_apply, eb]
  simp only [el, er, enc_at a0 a2 a3 a4 a5 a6 a7 a8 a9 a10 a11 a12 a13 a14 a15]
  rfl

/-- The sample. -/
theorem sample_at (R : Fin 32768) (f : Fin 256) :
    val_main_v51 (F := Ideal) a0 a1 a2 a3 a4 a5 a6 a7 a8 a9 a10 a11 a12 a13 a14 a15 (ix2 R f)
      = sample (headArr a6 a7 a8 a9 a10 a11 a12 a13)
          (pooled (childArr a2 a3 a4 a5) (fun m k => a0 (ix3 R m k)) (fun m => a14 (ix2 R m)) (a15 (ix1 R))) (fun f => a1 (ix2 R f)) f := by
  rw [val_main_v51_apply, val_main_v50_apply, val_main_v43_apply, val_main_v42_apply, val_main_v41_apply, val_main_cst_0_apply,
    mu_at a0 a2 a3 a4 a5 a6 a7 a8 a9 a10 a11 a12 a13 a14 a15, logvar_at a0 a2 a3 a4 a5 a6 a7 a8 a9 a10 a11 a12 a13 a14 a15]
  rfl

/-- The divergence term. -/
theorem kld_at (R : Fin 32768) (f : Fin 256) :
    val_main_v49 (F := Ideal) a0 a2 a3 a4 a5 a6 a7 a8 a9 a10 a11 a12 a13 a14 a15 (ix2 R f)
      = kld (headArr a6 a7 a8 a9 a10 a11 a12 a13)
          (pooled (childArr a2 a3 a4 a5) (fun m k => a0 (ix3 R m k)) (fun m => a14 (ix2 R m)) (a15 (ix1 R))) f := by
  rw [val_main_v49_apply, val_main_v47_apply, val_main_v45_apply, val_main_v44_apply, val_main_cst_1_apply, val_main_v46_apply,
    val_main_v48_apply, mu_at a0 a2 a3 a4 a5 a6 a7 a8 a9 a10 a11 a12 a13 a14 a15, logvar_at a0 a2 a3 a4 a5 a6 a7 a8 a9 a10 a11 a12 a13 a14 a15]
  rfl

/-! ## The result -/

/-- The reference's result array is `G` of its arguments. -/
theorem result_eq :
    val_main_v52 (F := Ideal) a0 a1 a2 a3 a4 a5 a6 a7 a8 a9 a10 a11 a12 a13 a14 a15 = G a0 a1 a2 a3 a4 a5 a6 a7 a8 a9 a10 a11 a12 a13 a14 a15 := by
  funext i
  obtain ⟨R, j, rfl⟩ : ∃ (R : Fin 32768) (j : Fin 512), i = ix2 R j := ⟨i 0, i 1, eq_ix2 i⟩
  show _ = Grow a0 a1 a2 a3 a4 a5 a6 a7 a8 a9 a10 a11 a12 a13 a14 a15 R j
  unfold val_main_v52 Grow rowOut
  by_cases hj : j.val < 256
  · rw [dif_pos hj]
    refine (concatenate_pair_apply_left 1 _ _ concatenates_S32768x256_S32768x256_S32768x512_d1 (ix2 R j) rfl (ix2 R (⟨j.val, hj⟩ : Fin 256))
      (fun b => by match b with | ⟨0, _⟩ => rfl | ⟨1, _⟩ => rfl)).trans ?_
    exact sample_at a0 a1 a2 a3 a4 a5 a6 a7 a8 a9 a10 a11 a12 a13 a14 a15 R _
  · rw [dif_neg hj]
    have hj2 : j.val - 256 < 256 := by have := j.isLt; omega
    refine (concatenate_pair_apply_right 1 _ _ concatenates_S32768x256_S32768x256_S32768x512_d1 (ix2 R j) rfl rfl (ix2 R (⟨j.val - 256, hj2⟩ : Fin 256))
      (fun b hb => by
        match b with
        | ⟨0, _⟩ => rfl
        | ⟨1, _⟩ => exact absurd rfl hb)
      (by show j.val - 256 + 256 = j.val; omega)).trans ?_
    exact kld_at a0 a2 a3 a4 a5 a6 a7 a8 a9 a10 a11 a12 a13 a14 a15 R _

end Cert.ReferenceIdeal.RefValue

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Stage.lean ====
/-
  The kernel body's building blocks on one block of 1024 rows, and what each holds at an entry.

  The body handles its ten child slots one after the other with the same few steps, and then runs four dense
  layers. Each step is named here once, as the same composition of vector operations the body uses, for any
  float type; the second half reads every step at an entry `(r, c)` of the block over the extended reals,
  where a matrix product is the plain sum over the contracted axis, a change of float format does nothing,
  and a widened comparison bit read as a signed integer is the comparison's indicator.
-/
import proofs.«129964_j46153718563045_2_alg».proof.KernelIdeal
import Idealize.ShloMosaic.Lib.Pipeline.Value
import Idealize.ShloMosaic.Lib.ValueIdx
import Idealize.ShloMosaic.Lib.ValueLayout
import Idealize.ShloMosaic.PureOps.Ideal.Laws
import proofs.«129964_j46153718563045_2_alg».proof.Proof.LibColumn
import proofs.«129964_j46153718563045_2_alg».proof.Proof.Net

noncomputable section

open scoped BigOperators

namespace Cert.KernelIdeal.Stage

open Cert.KernelIdeal Idealize.ShloMosaic Idealize.ShloMosaic.ValueIdx Cert.Lib.OneBit Cert.Lib.Column Cert.Net
open Facts₀ Facts

/-! ## The steps, for any float type -/

section Steps
variable {F : FTy → Type} [FloatOps F] [Facts]

/-- `relu` of a block of features. -/
def reluV (x : FVec F S1024x256 .f32) : FVec F S1024x256 .f32 :=
  maximumf x (broadcast S1024x256 (Scalar.ofBits .f32 0x00000000#32))

/-- A child's box layer before the relu: columns `off … off + 9` of the flattened boxes times `W_box`, plus the bias row. -/
def leafPre (off : ℕ) (hs : S1024x100.Slices ![0, off] S1024x10) (v1 : FVec F S1024x100 .f32) (v6 : FVec F S10x256 .bf16)
    (v8 : FVec F S1x256 .f32) : FVec F S1024x256 .f32 :=
  addf (matmul dot_S1024x10_S10x256_S1024x256_1_0_0_1_n_n none (truncf .bf16 (extractStridedSlice S1024x10 ![0, off] v1 hs) bitsLt_bf16_f32) v6
      (constant S1024x256 .f32 0x00000000#32))
    (broadcastTo S1024x256 v8 broadcasts_S1x256_S1024x256)

/-- A child's one-hot code: column `off` of the labels repeated 64 times against the column numbers. -/
def onehot (off : ℕ) (hs : S1024x10.Slices ![0, off] S1024x1) (v2 : Vec F S1024x10 .i32) (v17 : IVec S1024x64 32) : FVec F S1024x64 .bf16 :=
  truncf .bf16 (sitofp .f32 (extui 32 (cmpi .eq (broadcastTo S1024x64 (extractStridedSlice S1024x1 ![0, off] v2 hs) broadcasts_S1024x1_S1024x64) v17)
    natLt_1_32)) bitsLt_bf16_f32

/-- A child's second layer before the relu: box features times `W1a` plus one-hot code times `W1b`, plus the bias row. -/
def featPre (lf : FVec F S1024x256 .f32) (oh : FVec F S1024x64 .bf16) (v11 : FVec F S256x256 .bf16) (v14 : FVec F S64x256 .bf16)
    (v16 : FVec F S1x256 .f32) : FVec F S1024x256 .f32 :=
  addf (addf (matmul dot_S1024x256_S256x256_S1024x256_1_0_0_1_n_n none (truncf .bf16 lf bitsLt_bf16_f32) v11 (constant S1024x256 .f32 0x00000000#32))
        (matmul dot_S1024x64_S64x256_S1024x256_1_0_0_1_n_n none oh v14 (constant S1024x256 .f32 0x00000000#32)))
    (broadcastTo S1024x256 v16 broadcasts_S1x256_S1024x256)

/-- The mask of slot `k`: the indicator of "child count above `k`", repeated along the row. -/
def present (k : BitVec 32) (v4 : IVec S1024x1 32) : FVec F S1024x256 .f32 :=
  broadcastTo S1024x256 (sitofp .f32 (extui 32 (cmpi .sgt v4 (broadcast S1024x1 k)) natLt_1_32)) broadcasts_S1024x1_S1024x256

/-- One pooling step: the accumulator against a child's masked features. -/
def pool (acc ft pr : FVec F S1024x256 .f32) : FVec F S1024x256 .f32 := maximumf acc (mulf ft pr)

/-- A dense layer on the block: `x · W` plus the bias row. -/
def dense (x : FVec F S1024x256 .f32) (W : FVec F S256x256 .bf16) (b : FVec F S1x256 .f32) : FVec F S1024x256 .f32 :=
  addf (matmul dot_S1024x256_S256x256_S1024x256_1_0_0_1_n_n none (truncf .bf16 x bitsLt_bf16_f32) W (constant S1024x256 .f32 0x00000000#32))
    (broadcastTo S1024x256 b broadcasts_S1x256_S1024x256)

end Steps

/-! ## The steps at an entry, over the extended reals -/

section AtEntry
variable [Facts]

theorem reluV_apply (x : FVec Ideal S1024x256 .f32) (i : S1024x256.Idx) : reluV x i = relu (x i) := by
  show max (x i) (Ideal.ofBits .f32 0x00000000#32) = max (x i) 0
  rw [Ideal.ofBits_zero_f32]

/-! ### The three matrix products into a zero accumulator: plain sums over the contracted axis -/

private theorem dotA_lhs0 (j : S1024x256.Idx) (q : dot_S1024x10_S10x256_S1024x256_1_0_0_1_n_n.contr.Idx) :
    (dot_S1024x10_S10x256_S1024x256_1_0_0_1_n_n.lhsIdx j q 0).val = (j 0).val := by
  unfold DotDims.lhsIdx
  rw [dif_neg (show ¬(0 : Fin S1024x10.rank) ∈ dot_S1024x10_S10x256_S1024x256_1_0_0_1_n_n.lhsBatch from List.not_mem_nil),
    dif_pos (show (0 : Fin S1024x10.rank) ∈ dot_S1024x10_S10x256_S1024x256_1_0_0_1_n_n.lhsNonContracting from List.mem_singleton.2 rfl)]
  rfl
private theorem dotA_rhs1 (j : S1024x256.Idx) (q : dot_S1024x10_S10x256_S1024x256_1_0_0_1_n_n.contr.Idx) :
    (dot_S1024x10_S10x256_S1024x256_1_0_0_1_n_n.rhsIdx j q 1).val = (j 1).val := by
  unfold DotDims.rhsIdx
  rw [dif_neg (show ¬(1 : Fin S10x256.rank) ∈ dot_S1024x10_S10x256_S1024x256_1_0_0_1_n_n.rhsBatch from List.not_mem_nil),
    dif_pos (show (1 : Fin S10x256.rank) ∈ dot_S1024x10_S10x256_S1024x256_1_0_0_1_n_n.rhsNonContracting from List.mem_singleton.2 rfl)]
  rfl

/-- `[1024, 10] · [10, 256]` at `(p, c)`. -/
theorem mmA_apply {φ₁ φ₂ : FTy} (l : FVec Ideal S1024x10 φ₁) (r : FVec Ideal S10x256 φ₂) (p : Fin 1024) (c : Fin 256) :
    matmul dot_S1024x10_S10x256_S1024x256_1_0_0_1_n_n none l r (constant S1024x256 .f32 0x00000000#32) (ix2 p c)
      = ∑ k : Fin 10, l (ix2 p k) * r (ix2 k c) := by
  simp only [matmul]
  rw [Ideal.matmul_constant_zero_apply, ← Equiv.sum_comp (contrEquiv1 dot_S1024x10_S10x256_S1024x256_1_0_0_1_n_n 10 rfl rfl).symm]
  refine Finset.sum_congr rfl fun k _ => ?_
  have hk := contrEquiv1_symm_val dot_S1024x10_S10x256_S1024x256_1_0_0_1_n_n 10 rfl rfl k
  have el : dot_S1024x10_S10x256_S1024x256_1_0_0_1_n_n.lhsIdx (ix2 p c) ((contrEquiv1 dot_S1024x10_S10x256_S1024x256_1_0_0_1_n_n 10 rfl rfl).symm k) = ix2 p k :=
    funext fun a => Fin.ext (by
      match a with
      | ⟨0, _⟩ => exact dotA_lhs0 _ _
      | ⟨1, _⟩ => exact (dot_S1024x10_S10x256_S1024x256_1_0_0_1_n_n.lhsIdx_val_of_single rfl _ _).trans hk)
  have er : dot_S1024x10_S10x256_S1024x256_1_0_0_1_n_n.rhsIdx (ix2 p c) ((contrEquiv1 dot_S1024x10_S10x256_S1024x256_1_0_0_1_n_n 10 rfl rfl).symm k) = ix2 k c :=
    funext fun a => Fin.ext (by
      match a with
      | ⟨0, _⟩ => exact (dot_S1024x10_S10x256_S1024x256_1_0_0_1_n_n.rhsIdx_val_of_single rfl _ _).trans hk
      | ⟨1, _⟩ => exact dotA_rhs1 _ _)
  rw [el, er]

private theorem dotB_lhs0 (j : S1024x256.Idx) (q : dot_S1024x256_S256x256_S1024x256_1_0_0_1_n_n.contr.Idx) :
    (dot_S1024x256_S256x256_S1024x256_1_0_0_1_n_n.lhsIdx j q 0).val = (j 0).val := by
  unfold DotDims.lhsIdx
  rw [dif_neg (show ¬(0 : Fin S1024x256.rank) ∈ dot_S1024x256_S256x256_S1024x256_1_0_0_1_n_n.lhsBatch from List.not_mem_nil),
    dif_pos (show (0 : Fin S1024x256.rank) ∈ dot_S1024x256_S256x256_S1024x256_1_0_0_1_n_n.lhsNonContracting from List.mem_singleton.2 rfl)]
  rfl
private theorem dotB_rhs1 (j : S1024x256.Idx) (q : dot_S1024x256_S256x256_S1024x256_1_0_0_1_n_n.contr.Idx) :
    (dot_S1024x256_S256x256_S1024x256_1_0_0_1_n_n.rhsIdx j q 1).val = (j 1).val := by
  unfold DotDims.rhsIdx
  rw [dif_neg (show ¬(1 : Fin S256x256.rank) ∈ dot_S1024x256_S256x256_S1024x256_1_0_0_1_n_n.rhsBatch from List.not_mem_nil),
    dif_pos (show (1 : Fin S256x256.rank) ∈ dot_S1024x256_S256x256_S1024x256_1_0_0_1_n_n.rhsNonContracting from List.mem_singleton.2 rfl)]
  rfl

/-- `[1024, 256] · [256, 256]` at `(p, c)`. -/
theorem mmB_apply {φ₁ φ₂ : FTy} (l : FVec Ideal S1024x256 φ₁) (r : FVec Ideal S256x256 φ₂) (p : Fin 1024) (c : Fin 256) :
    matmul dot_S1024x256_S256x256_S1024x256_1_0_0_1_n_n none l r (constant S1024x256 .f32 0x00000000#32) (ix2 p c)
      = ∑ k : Fin 256, l (ix2 p k) * r (ix2 k c) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p c) ((contrEquiv1 dot_S1024x256_S256x256_S1024x256_1_0_0_1_n_n 256 rfl rfl).symm k) = ix2 p k :=
    funext fun a => Fin.ext (by
      match a with
      | ⟨0, _⟩ => exact dotB_lhs0 _ _
      | ⟨1, _⟩ => exact (dot_S1024x256_S256x256_S1024x256_1_0_0_1_n_n.lhsIdx_val_of_single rfl _ _).trans hk)
  have er : dot_S1024x256_S256x256_S1024x256_1_0_0_1_n_n.rhsIdx (ix2 p c) ((contrEquiv1 dot_S1024x256_S256x256_S1024x256_1_0_0_1_n_n 256 rfl rfl).symm k) = ix2 k c :=
    funext fun a => Fin.ext (by
      match a with
      | ⟨0, _⟩ => exact (dot_S1024x256_S256x256_S1024x256_1_0_0_1_n_n.rhsIdx_val_of_single rfl _ _).trans hk
      | ⟨1, _⟩ => exact dotB_rhs1 _ _)
  rw [el, er]

private theorem dotC_lhs0 (j : S1024x256.Idx) (q : dot_S1024x64_S64x256_S1024x256_1_0_0_1_n_n.contr.Idx) :
    (dot_S1024x64_S64x256_S1024x256_1_0_0_1_n_n.lhsIdx j q 0).val = (j 0).val := by
  unfold DotDims.lhsIdx
  rw [dif_neg (show ¬(0 : Fin S1024x64.rank) ∈ dot_S1024x64_S64x256_S1024x256_1_0_0_1_n_n.lhsBatch from List.not_mem_nil),
    dif_pos (show (0 : Fin S1024x64.rank) ∈ dot_S1024x64_S64x256_S1024x256_1_0_0_1_n_n.lhsNonContracting from List.mem_singleton.2 rfl)]
  rfl
private theorem dotC_rhs1 (j : S1024x256.Idx) (q : dot_S1024x64_S64x256_S1024x256_1_0_0_1_n_n.contr.Idx) :
    (dot_S1024x64_S64x256_S1024x256_1_0_0_1_n_n.rhsIdx j q 1).val = (j 1).val := by
  unfold DotDims.rhsIdx
  rw [dif_neg (show ¬(1 : Fin S64x256.rank) ∈ dot_S1024x64_S64x256_S1024x256_1_0_0_1_n_n.rhsBatch from List.not_mem_nil),
    dif_pos (show (1 : Fin S64x256.rank) ∈ dot_S1024x64_S64x256_S1024x256_1_0_0_1_n_n.rhsNonContracting from List.mem_singleton.2 rfl)]
  rfl

/-- `[1024, 64] · [64, 256]` at `(p, c)`. -/
theorem mmC_apply {φ₁ φ₂ : FTy} (l : FVec Ideal S1024x64 φ₁) (r : FVec Ideal S64x256 φ₂) (p : Fin 1024) (c : Fin 256) :
    matmul dot_S1024x64_S64x256_S1024x256_1_0_0_1_n_n none l r (constant S1024x256 .f32 0x00000000#32) (ix2 p c)
      = ∑ k : Fin 64, l (ix2 p k) * r (ix2 k c) := by
  simp only [matmul]
  rw [Ideal.matmul_constant_zero_apply, ← Equiv.sum_comp (contrEquiv1 dot_S1024x64_S64x256_S1024x256_1_0_0_1_n_n 64 rfl rfl).symm]
  refine Finset.sum_congr rfl fun k _ => ?_
  have hk := contrEquiv1_symm_val dot_S1024x64_S64x256_S1024x256_1_0_0_1_n_n 64 rfl rfl k
  have el : dot_S1024x64_S64x256_S1024x256_1_0_0_1_n_n.lhsIdx (ix2 p c) ((contrEquiv1 dot_S1024x64_S64x256_S1024x256_1_0_0_1_n_n 64 rfl rfl).symm k) = ix2 p k :=
    funext fun a => Fin.ext (by
      match a with
      | ⟨0, _⟩ => exact dotC_lhs0 _ _
      | ⟨1, _⟩ => exact (dot_S1024x64_S64x256_S1024x256_1_0_0_1_n_n.lhsIdx_val_of_single rfl _ _).trans hk)
  have er : dot_S1024x64_S64x256_S1024x256_1_0_0_1_n_n.rhsIdx (ix2 p c) ((contrEquiv1 dot_S1024x64_S64x256_S1024x256_1_0_0_1_n_n 64 rfl rfl).symm k) = ix2 k c :=
    funext fun a => Fin.ext (by
      match a with
      | ⟨0, _⟩ => exact (dot_S1024x64_S64x256_S1024x256_1_0_0_1_n_n.rhsIdx_val_of_single rfl _ _).trans hk
      | ⟨1, _⟩ => exact dotC_rhs1 _ _)
  rw [el, er]

/-! ### The steps -/

/-- The box layer at `(r, f)`: the affine form of the child's ten box numbers. -/
theorem leafPre_apply (off : ℕ) (hoff : off + 10 ≤ 100) (hs : S1024x100.Slices ![0, off] S1024x10) (v1 : FVec Ideal S1024x100 .f32)
    (v6 : FVec Ideal S10x256 .bf16) (v8 : FVec Ideal S1x256 .f32) (r : Fin 1024) (f : Fin 256) :
    leafPre off hs v1 v6 v8 (ix2 r f)
      = aff (fun i : Fin 10 => v1 (ix2 r (⟨off + i.val, by have := i.isLt; omega⟩ : Fin 100))) (fun i => v6 (ix2 i f)) (v8 (ix2 (0 : Fin 1) f)) := by
  unfold leafPre aff
  rw [addf_apply, mmA_apply, broadcastTo_1b_ab_apply]
  refine congrArg (· + _) (Finset.sum_congr rfl fun i _ => ?_)
  rw [truncf_apply, slice2_axis1_apply off v1 hs r i ⟨off + i.val, by have := i.isLt; omega⟩ rfl]

/-- The one-hot code at `(r, k)`: the indicator that the child's label is `k`. -/
theorem onehot_apply (off : ℕ) (hoff : off < 10) (hs : S1024x10.Slices ![0, off] S1024x1) (v2 : Vec Ideal S1024x10 .i32) (r : Fin 1024) (k : Fin 64) :
    onehot off hs v2 (iota .tc S1024x64 32 [1] iota_S1024x64_d1_w32) (ix2 r k) = hot (v2 (ix2 r (⟨off, hoff⟩ : Fin 10))) k := by
  unfold onehot hot
  rw [truncf_apply]
  show ((((IntOp.cmpi .eq (broadcastTo S1024x64 (extractStridedSlice S1024x1 ![0, off] v2 hs) broadcasts_S1024x1_S1024x64 (ix2 r k))
      (iota .tc S1024x64 32 [1] iota_S1024x64_d1_w32 (ix2 r k))).setWidth 32).toInt : ℝ) : EReal) = _
  rw [signed_of_widened, broadcastTo_a1_ab_apply, slice2_axis1_apply off v2 hs r (0 : Fin 1) ⟨off, hoff⟩ rfl, iota_single_apply]

/-- The second layer at `(r, h)`. -/
theorem featPre_apply (lf : FVec Ideal S1024x256 .f32) (oh : FVec Ideal S1024x64 .bf16) (v11 : FVec Ideal S256x256 .bf16)
    (v14 : FVec Ideal S64x256 .bf16) (v16 : FVec Ideal S1x256 .f32) (r : Fin 1024) (h : Fin 256) :
    featPre lf oh v11 v14 v16 (ix2 r h)
      = (∑ f : Fin 256, lf (ix2 r f) * v11 (ix2 f h) + ∑ k : Fin 64, oh (ix2 r k) * v14 (ix2 k h)) + v16 (ix2 (0 : Fin 1) h) := by
  unfold featPre
  rw [addf_apply, addf_apply, mmB_apply, mmC_apply, broadcastTo_1b_ab_apply]
  rfl

/-- The mask of slot `k` at `(r, h)`: the indicator that row `r`'s child count is above `k`. -/
theorem present_apply (k : BitVec 32) (v4 : IVec S1024x1 32) (r : Fin 1024) (h : Fin 256) :
    present (F := Ideal) k v4 (ix2 r h) = val01 (IntOp.cmpi .sgt (v4 (ix2 r (0 : Fin 1))) k) := by
  unfold present
  rw [broadcastTo_a1_ab_apply]
  show ((((IntOp.cmpi .sgt (v4 (ix2 r (0 : Fin 1))) k).setWidth 32).toInt : ℝ) : EReal) = _
  rw [signed_of_widened]

/-- A dense layer at `(r, c)`. -/
theorem dense_apply (x : FVec Ideal S1024x256 .f32) (W : FVec Ideal S256x256 .bf16) (b : FVec Ideal S1x256 .f32) (r : Fin 1024) (c : Fin 256) :
    dense x W b (ix2 r c) = aff (fun k : Fin 256 => x (ix2 r k)) (fun k => W (ix2 k c)) (b (ix2 (0 : Fin 1) c)) := by
  unfold dense aff
  rw [addf_apply, mmB_apply, broadcastTo_1b_ab_apply]
  rfl

end AtEntry

end Cert.KernelIdeal.Stage

end
-- ==== Proof.Body.lean ====
/-
  The kernel body as one composition of its steps, and the row of results it leaves at an entry of the block.

  The body's stored value is a tree of the steps of Stage.lean: the ten child slots pooled one after the other
  into an accumulator that starts at zero, then the parent layer, the sampler's hidden layer, the mean and the
  log-variance, and the two halves of the result row joined side by side. Read at entry `(r, j)` over the
  extended reals it is the network of Net.lean applied to row `r` of the block's inputs: child `m`'s box numbers
  are columns `10 m … 10 m + 9` of the flattened boxes, its label is column `m` of the labels.
-/
import proofs.«129964_j46153718563045_2_alg».proof.Proof.Stage
import proofs.«129964_j46153718563045_2_alg».proof.Proof.Gen.KernelIdeal.Frame

noncomputable section

open scoped BigOperators

namespace Cert.KernelIdeal.Body

open Cert.KernelIdeal Cert.KernelIdeal.Stage Idealize.ShloMosaic Idealize.ShloMosaic.ValueIdx Cert.Lib.OneBit Cert.Lib.RunningMax Cert.Net
open Facts₀ Facts

section AnyFloat
variable {F : FTy → Type} [FloatOps F] [Facts]

/-- The masked features of one child slot: its boxes at columns `off …`, its label at column `m`, its mask `k`. -/
def slot (off : ℕ) (hs : S1024x100.Slices ![0, off] S1024x10) (m : ℕ) (hm : S1024x10.Slices ![0, m] S1024x1) (k : BitVec 32)
    (v1 : FVec F S1024x100 .f32) (v2 : Vec F S1024x10 .i32) (v4 : IVec S1024x1 32) (v6 : FVec F S10x256 .bf16) (v8 : FVec F S1x256 .f32)
    (v11 : FVec F S256x256 .bf16) (v14 : FVec F S64x256 .bf16) (v16 : FVec F S1x256 .f32) (v17 : IVec S1024x64 32) : FVec F S1024x256 .f32 :=
  mulf (reluV (featPre (reluV (leafPre off hs v1 v6 v8)) (onehot m hm v2 v17) v11 v14 v16)) (present k v4)

/-- The pooled features: the accumulator after the ten slots. -/
def pooledV (v1 : FVec F S1024x100 .f32) (v2 : Vec F S1024x10 .i32) (v4 : IVec S1024x1 32) (v6 : FVec F S10x256 .bf16) (v8 : FVec F S1x256 .f32)
    (v11 : FVec F S256x256 .bf16) (v14 : FVec F S64x256 .bf16) (v16 : FVec F S1x256 .f32) (v17 : IVec S1024x64 32) : FVec F S1024x256 .f32 :=
  (maximumf (maximumf (maximumf (maximumf (maximumf (maximumf (maximumf (maximumf (maximumf (maximumf (broadcast S1024x256 (Scalar.ofBits .f32 0x00000000#32))
    (slot 0 slices_S1024x100_o0_0_S1024x10 0 slices_S1024x10_o0_0_S1024x1 0#32 v1 v2 v4 v6 v8 v11 v14 v16 v17))
    (slot 10 slices_S1024x100_o0_10_S1024x10 1 slices_S1024x10_o0_1_S1024x1 1#32 v1 v2 v4 v6 v8 v11 v14 v16 v17))
    (slot 20 slices_S1024x100_o0_20_S1024x10 2 slices_S1024x10_o0_2_S1024x1 2#32 v1 v2 v4 v6 v8 v11 v14 v16 v17))
    (slot 30 slices_S1024x100_o0_30_S1024x10 3 slices_S1024x10_o0_3_S1024x1 3#32 v1 v2 v4 v6 v8 v11 v14 v16 v17))
    (slot 40 slices_S1024x100_o0_40_S1024x10 4 slices_S1024x10_o0_4_S1024x1 4#32 v1 v2 v4 v6 v8 v11 v14 v16 v17))
    (slot 50 slices_S1024x100_o0_50_S1024x10 5 slices_S1024x10_o0_5_S1024x1 5#32 v1 v2 v4 v6 v8 v11 v14 v16 v17))
    (slot 60 slices_S1024x100_o0_60_S1024x10 6 slices_S1024x10_o0_6_S1024x1 6#32 v1 v2 v4 v6 v8 v11 v14 v16 v17))
    (slot 70 slices_S1024x100_o0_70_S1024x10 7 slices_S1024x10_o0_7_S1024x1 7#32 v1 v2 v4 v6 v8 v11 v14 v16 v17))
    (slot 80 slices_S1024x100_o0_80_S1024x10 8 slices_S1024x10_o0_8_S1024x1 8#32 v1 v2 v4 v6 v8 v11 v14 v16 v17))
    (slot 90 slices_S1024x100_o0_90_S1024x10 9 slices_S1024x10_o0_9_S1024x1 9#32 v1 v2 v4 v6 v8 v11 v14 v16 v17))

/-- What the body stores, from the seventeen blocks it loads (in the order of the kernel's operands). -/
def bodyOut (x0 : Vec F S1024x100 .f32) (x1 : Vec F S1024x10 .i32) (x2 : Vec F S1024x1 .i32) (x3 : Vec F S1024x256 .f32) (x4 : Vec F S10x256 .f32)
    (x5 : Vec F S1x256 .f32) (x6 : Vec F S256x256 .f32) (x7 : Vec F S64x256 .f32) (x8 : Vec F S1x256 .f32) (x9 : Vec F S256x256 .f32)
    (x10 : Vec F S1x256 .f32) (x11 : Vec F S256x256 .f32) (x12 : Vec F S1x256 .f32) (x13 : Vec F S256x256 .f32) (x14 : Vec F S1x256 .f32)
    (x15 : Vec F S256x256 .f32) (x16 : Vec F S1x256 .f32) : FVec F S1024x512 .f32 :=
  have v1 : FVec F S1024x100 .f32 := shapeCast S1024x100 x0 shapeCasts_S1024x100_S1024x100
  have v4 : IVec S1024x1 32 := shapeCast S1024x1 x2 shapeCasts_S1024x1_S1024x1
  have v6 : FVec F S10x256 .bf16 := truncf .bf16 x4 bitsLt_bf16_f32
  have v8 : FVec F S1x256 .f32 := shapeCast S1x256 x5 shapeCasts_S1x256_S1x256
  have v11 : FVec F S256x256 .bf16 := truncf .bf16 (shapeCast S256x256 x6 shapeCasts_S256x256_S256x256) bitsLt_bf16_f32
  have v14 : FVec F S64x256 .bf16 := truncf .bf16 (shapeCast S64x256 x7 shapeCasts_S64x256_S64x256) bitsLt_bf16_f32
  have v16 : FVec F S1x256 .f32 := shapeCast S1x256 x8 shapeCasts_S1x256_S1x256
  have v17 : IVec S1024x64 32 := iota .tc S1024x64 32 [1] iota_S1024x64_d1_w32
  have x : FVec F S1024x256 .f32 := pooledV v1 x1 v4 v6 v8 v11 v14 v16 v17
  have pf : FVec F S1024x256 .f32 := reluV (dense x (truncf .bf16 x9 bitsLt_bf16_f32) (shapeCast S1x256 x10 shapeCasts_S1x256_S1x256))
  have en : FVec F S1024x256 .f32 := reluV (dense pf (truncf .bf16 x11 bitsLt_bf16_f32) (shapeCast S1x256 x12 shapeCasts_S1x256_S1x256))
  have mu : FVec F S1024x256 .f32 := dense en (truncf .bf16 x13 bitsLt_bf16_f32) (shapeCast S1x256 x14 shapeCasts_S1x256_S1x256)
  have lv : FVec F S1024x256 .f32 := dense en (truncf .bf16 x15 bitsLt_bf16_f32) (shapeCast S1x256 x16 shapeCasts_S1x256_S1x256)
  concatenate S1024x512 1
    [⟨S1024x256, addf (mulf x3 (exp (mulf (broadcast S1024x256 (Scalar.ofBits .f32 0x3F000000#32)) lv))) mu⟩,
     ⟨S1024x256, subf (subf (addf (broadcast S1024x256 (Scalar.ofBits .f32 0x3F800000#32)) lv) (mulf mu mu)) (exp lv)⟩]
    concatenates_S1024x256_S1024x256_S1024x512_d1

/-- The output window's buffer after the body is its one store of that value. -/
theorem out0_17_eq (x0 : Vec F S1024x100 .f32) (x1 : Vec F S1024x10 .i32) (x2 : Vec F S1024x1 .i32) (x3 : Vec F S1024x256 .f32) (x4 : Vec F S10x256 .f32)
    (x5 : Vec F S1x256 .f32) (x6 : Vec F S256x256 .f32) (x7 : Vec F S64x256 .f32) (x8 : Vec F S1x256 .f32) (x9 : Vec F S256x256 .f32)
    (x10 : Vec F S1x256 .f32) (x11 : Vec F S256x256 .f32) (x12 : Vec F S1x256 .f32) (x13 : Vec F S256x256 .f32) (x14 : Vec F S1x256 .f32)
    (x15 : Vec F S256x256 .f32) (x16 : Vec F S1x256 .f32) :
    Gen.out0_17 x0 x1 x2 x3 x4 x5 x6 x7 x8 x9 x10 x11 x12 x13 x14 x15 x16
      = View.canon [⟨Gen.r0_8, bodyOut (View.ld x0 Gen.r0_0) (View.ld x1 Gen.r0_1) (View.ld x2 Gen.r0_2) (View.ld x3 Gen.r0_7) (View.ld x4 Gen.r0_3) (View.ld x5 Gen.r0_4)
          (View.ld x6 Gen.r0_5) (View.ld x7 Gen.r0_6) (View.ld x8 Gen.r0_4) (View.ld x9 Gen.r0_5) (View.ld x10 Gen.r0_4) (View.ld x11 Gen.r0_5) (View.ld x12 Gen.r0_4)
          (View.ld x13 Gen.r0_5) (View.ld x14 Gen.r0_4) (View.ld x15 Gen.r0_5) (View.ld x16 Gen.r0_4)⟩] := rfl

end AnyFloat

/-! ## At an entry of the block, over the extended reals -/

section AtEntry
variable [Facts]

/-- The child layers' weights and biases read off their blocks, entry by entry. -/
def childOf (wb : S10x256.Idx → EReal) (bb : S1x256.Idx → EReal) (w1a : S256x256.Idx → EReal) (w1b : S64x256.Idx → EReal)
    (b1 : S1x256.Idx → EReal) : Child :=
  ⟨fun i f => wb (ix2 i f), fun f => bb (ix2 (0 : Fin 1) f), fun f h => w1a (ix2 f h), fun k h => w1b (ix2 k h), fun h => b1 (ix2 (0 : Fin 1) h)⟩

/-- The later layers' weights and biases read off their blocks, entry by entry. -/
def headOf (w2 : S256x256.Idx → EReal) (b2 : S1x256.Idx → EReal) (ws1 : S256x256.Idx → EReal) (bs1 : S1x256.Idx → EReal)
    (wmu : S256x256.Idx → EReal) (bmu : S1x256.Idx → EReal) (wvar : S256x256.Idx → EReal) (bvar : S1x256.Idx → EReal) : Head :=
  ⟨fun h f => w2 (ix2 h f), fun f => b2 (ix2 (0 : Fin 1) f), fun f h => ws1 (ix2 f h), fun h => bs1 (ix2 (0 : Fin 1) h),
   fun h f => wmu (ix2 h f), fun f => bmu (ix2 (0 : Fin 1) f), fun h f => wvar (ix2 h f), fun f => bvar (ix2 (0 : Fin 1) f)⟩

/-- One slot's masked features at `(r, h)`: the child term of row `r`, its boxes read at columns `off …`. -/
theorem slot_apply (off : ℕ) (hoff : off + 10 ≤ 100) (hs : S1024x100.Slices ![0, off] S1024x10) (m : ℕ) (hm10 : m < 10)
    (hm : S1024x10.Slices ![0, m] S1024x1) (v1 : FVec Ideal S1024x100 .f32) (v2 : Vec Ideal S1024x10 .i32) (v4 : IVec S1024x1 32)
    (v6 : FVec Ideal S10x256 .bf16) (v8 : FVec Ideal S1x256 .f32) (v11 : FVec Ideal S256x256 .bf16) (v14 : FVec Ideal S64x256 .bf16)
    (v16 : FVec Ideal S1x256 .f32) (r : Fin 1024) (h : Fin 256) :
    slot off hs m hm (BitVec.ofNat 32 m) v1 v2 v4 v6 v8 v11 v14 v16 (iota .tc S1024x64 32 [1] iota_S1024x64_d1_w32) (ix2 r h)
      = term (childOf v6 v8 v11 v14 v16) (fun i : Fin 10 => v1 (ix2 r (⟨off + i.val, by have := i.isLt; omega⟩ : Fin 100)))
          (v2 (ix2 r (⟨m, hm10⟩ : Fin 10))) (v4 (ix2 r (0 : Fin 1))) m h := by
  unfold slot
  rw [mulf_apply, reluV_apply, featPre_apply, present_apply]
  simp only [reluV_apply, leafPre_apply off hoff, onehot_apply m hm10]
  rfl

/-- The accumulator after the ten slots at `(r, h)`: the pooled vector of row `r`. -/
theorem pooledV_apply (v1 : FVec Ideal S1024x100 .f32) (v2 : Vec Ideal S1024x10 .i32) (v4 : IVec S1024x1 32)
    (v6 : FVec Ideal S10x256 .bf16) (v8 : FVec Ideal S1x256 .f32) (v11 : FVec Ideal S256x256 .bf16) (v14 : FVec Ideal S64x256 .bf16)
    (v16 : FVec Ideal S1x256 .f32) (r : Fin 1024) (h : Fin 256) :
    pooledV v1 v2 v4 v6 v8 v11 v14 v16 (iota .tc S1024x64 32 [1] iota_S1024x64_d1_w32) (ix2 r h)
      = pooled (childOf v6 v8 v11 v14 v16)
          (fun m i => v1 (ix2 r (⟨10 * m.val + i.val, by have := m.isLt; have := i.isLt; omega⟩ : Fin 100)))
          (fun m => v2 (ix2 r m)) (v4 (ix2 r (0 : Fin 1))) h := by
  have hz : broadcast S1024x256 (Scalar.ofBits (F := Ideal) .f32 0x00000000#32) (ix2 r h) = (0 : EReal) := Ideal.ofBits_zero_f32
  unfold pooledV
  simp only [maximumf_apply]
  rw [hz, slot_apply 0 (by norm_num) slices_S1024x100_o0_0_S1024x10 0 (by norm_num) slices_S1024x10_o0_0_S1024x1,
    slot_apply 10 (by norm_num) slices_S1024x100_o0_10_S1024x10 1 (by norm_num) slices_S1024x10_o0_1_S1024x1,
    slot_apply 20 (by norm_num) slices_S1024x100_o0_20_S1024x10 2 (by norm_num) slices_S1024x10_o0_2_S1024x1,
    slot_apply 30 (by norm_num) slices_S1024x100_o0_30_S1024x10 3 (by norm_num) slices_S1024x10_o0_3_S1024x1,
    slot_apply 40 (by norm_num) slices_S1024x100_o0_40_S1024x10 4 (by norm_num) slices_S1024x10_o0_4_S1024x1,
    slot_apply 50 (by norm_num) slices_S1024x100_o0_50_S1024x10 5 (by norm_num) slices_S1024x10_o0_5_S1024x1,
    slot_apply 60 (by norm_num) slices_S1024x100_o0_60_S1024x10 6 (by norm_num) slices_S1024x10_o0_6_S1024x1,
    slot_apply 70 (by norm_num) slices_S1024x100_o0_70_S1024x10 7 (by norm_num) slices_S1024x10_o0_7_S1024x1,
    slot_apply 80 (by norm_num) slices_S1024x100_o0_80_S1024x10 8 (by norm_num) slices_S1024x10_o0_8_S1024x1,
    slot_apply 90 (by norm_num) slices_S1024x100_o0_90_S1024x10 9 (by norm_num) slices_S1024x10_o0_9_S1024x1]
  rfl

/-- The accumulator as a function of the entry, for blocks as the body loads them. -/
theorem pooledV_fun (v1 : Vec Ideal S1024x100 .f32) (v2 : Vec Ideal S1024x10 .i32) (v4 : Vec Ideal S1024x1 .i32)
    (v6 : FVec Ideal S10x256 .bf16) (v8 : Vec Ideal S1x256 .f32) (v11 : FVec Ideal S256x256 .bf16) (v14 : FVec Ideal S64x256 .bf16)
    (v16 : Vec Ideal S1x256 .f32) :
    pooledV (F := Ideal) v1 v2 v4 v6 v8 v11 v14 v16 (iota .tc S1024x64 32 [1] iota_S1024x64_d1_w32)
      = fun i : S1024x256.Idx => pooled (childOf v6 v8 v11 v14 v16)
          (fun m k => v1 (ix2 (i 0) (⟨10 * m.val + k.val, by have := m.isLt; have := k.isLt; omega⟩ : Fin 100)))
          (fun m => v2 (ix2 (i 0) m)) (v4 (ix2 (i 0) (0 : Fin 1))) (i 1) := by
  funext i
  obtain ⟨r, h, rfl⟩ : ∃ (r : Fin 1024) (h : Fin 256), i = ix2 r h := ⟨i 0, i 1, eq_ix2 i⟩
  exact pooledV_apply v1 v2 v4 v6 v8 v11 v14 v16 r h

/-- An exponential read at an entry. -/
theorem expV_apply (x : FVec Ideal S1024x256 .f32) (i : S1024x256.Idx) : exp x i = Ideal.exp (x i) := rfl

/-- What the body stores at `(r, j)`: entry `j` of the result row of row `r` of the block's inputs. -/
theorem bodyOut_apply (x0 : Vec Ideal S1024x100 .f32) (x1 : Vec Ideal S1024x10 .i32) (x2 : Vec Ideal S1024x1 .i32) (x3 : Vec Ideal S1024x256 .f32)
    (x4 : Vec Ideal S10x256 .f32) (x5 : Vec Ideal S1x256 .f32) (x6 : Vec Ideal S256x256 .f32) (x7 : Vec Ideal S64x256 .f32) (x8 : Vec Ideal S1x256 .f32)
    (x9 : Vec Ideal S256x256 .f32) (x10 : Vec Ideal S1x256 .f32) (x11 : Vec Ideal S256x256 .f32) (x12 : Vec Ideal S1x256 .f32)
    (x13 : Vec Ideal S256x256 .f32) (x14 : Vec Ideal S1x256 .f32) (x15 : Vec Ideal S256x256 .f32) (x16 : Vec Ideal S1x256 .f32)
    (r : Fin 1024) (j : Fin 512) :
    bodyOut (F := Ideal) x0 x1 x2 x3 x4 x5 x6 x7 x8 x9 x10 x11 x12 x13 x14 x15 x16 (ix2 r j)
      = rowOut (headOf x9 x10 x11 x12 x13 x14 x15 x16)
          (pooled (childOf x4 x5 x6 x7 x8)
            (fun m i => x0 (ix2 r (⟨10 * m.val + i.val, by have := m.isLt; have := i.isLt; omega⟩ : Fin 100)))
            (fun m => x1 (ix2 r m)) (x2 (ix2 r (0 : Fin 1))))
          (fun f => x3 (ix2 r f)) j := by
  simp only [bodyOut, shapeCast_self]
  unfold rowOut
  by_cases hj : j.val < 256
  · rw [dif_pos hj]
    refine (concatenate_pair_apply_left 1 _ _ concatenates_S1024x256_S1024x256_S1024x512_d1 (ix2 r j) rfl (ix2 r (⟨j.val, hj⟩ : Fin 256))
      (fun b => by match b with | ⟨0, _⟩ => rfl | ⟨1, _⟩ => rfl)).trans ?_
    rw [pooledV_fun]
    simp only [addf_apply, mulf_apply, expV_apply, broadcast_apply, dense_apply, reluV_apply]
    rfl
  · rw [dif_neg hj]
    have hj2 : j.val - 256 < 256 := by have := j.isLt; omega
    refine (concatenate_pair_apply_right 1 _ _ concatenates_S1024x256_S1024x256_S1024x512_d1 (ix2 r j) rfl rfl (ix2 r (⟨j.val - 256, hj2⟩ : Fin 256))
      (fun b hb => by
        match b with
        | ⟨0, _⟩ => rfl
        | ⟨1, _⟩ => exact absurd rfl hb)
      (by show j.val - 256 + 256 = j.val; omega)).trans ?_
    rw [pooledV_fun]
    simp only [addf_apply, subf_apply, mulf_apply, expV_apply, broadcast_apply, dense_apply, reluV_apply]
    rfl

end AtEntry

end Cert.KernelIdeal.Body

end
-- ==== Proof.KernelIsG.lean ====
/-
  The kernel's result array is the array `G` of Spec.lean.

  The grid has 32 points; point `t` works on rows `1024 t … 1024 t + 1023` of the four row-tiled inputs (the flattened
  boxes, the labels, the child counts as a column, the noise) and of the result, and on the whole of every weight
  and bias array. Before the call the host flattens the boxes to 100 columns, turns the child counts into a
  column and the biases into rows, and cuts the 320-row child matrix into its first 256 and last 64 rows; read at
  an entry, each of these is an entry of the argument it came from. So what point `t` writes back is block `t` of
  `G`, the 32 blocks cover the result array, and the array ends as `G` of the arguments.
-/
import proofs.«129964_j46153718563045_2_alg».proof.Proof.Body
import proofs.«129964_j46153718563045_2_alg».proof.Proof.Spec
import proofs.«129964_j46153718563045_2_alg».proof.Proof.Gen.KernelIdeal.Value
import Idealize.ShloMosaic.Lib.Pipeline.Value
import Idealize.ShloMosaic.Lib.StableHlo.Run
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.ValueIdx Cert.Lib.Column Cert.Net Cert.Spec Cert.KernelIdeal.Body
open Idealize.ShloMosaic.Pipeline (Dat)

variable (m : (ℓ : Loc nD τ sig) → Buf (Elt Ideal) ℓ) (ρ : Dev nD → PrngReg)

/-- The result array as the kernel's arguments give it. -/
def GK (c : Dev nD) : S32768x512.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15))

/-! ## What the host prepared, read at an entry -/

theorem hz : (![0, 0] : Fin 2 → Nat) = fun _ => 0 := funext fun a => by fin_cases a <;> rfl

/-- The flattened boxes: entry `(R, 10 k + i)` is number `i` of child `k` of row `R`. -/
theorem V_boxes (c : Dev nD) (R : Fin 32768) (k i : Fin 10) :
    (V m c main_v0 : S32768x100.Idx → EReal) (ix2 R (⟨10 * k.val + i.val, by have := k.isLt; have := i.isLt; omega⟩ : Fin 100))
      = (m ((c : Thread nD τ).loc main_arg0) : S32768x10x10.Idx → EReal) (ix3 R k i) := by
  have e : (V m c main_v0 : S32768x100.Idx → EReal)
      = shapeCast S32768x100 (m ((c : Thread nD τ).loc main_arg0) : S32768x10x10.Idx → EReal) shapeCasts_S32768x10x10_S32768x100 := by
    dsimp only [V, hostOps0]; after_results <;> rfl
  have key : ∀ a : S32768x10x10.Idx → EReal,
      shapeCast S32768x100 a shapeCasts_S32768x10x10_S32768x100 (ix2 R (⟨10 * k.val + i.val, by have := k.isLt; have := i.isLt; omega⟩ : Fin 100))
        = a (ix3 R k i) := fun a =>
    shapeCast_apply a _ _ _ (by
      rw [Shape.rowMajor_val_three, Shape.rowMajor_val_two]
      show (R.val * 10 + k.val) * 10 + i.val = R.val * 100 + (10 * k.val + i.val)
      omega)
  rw [e]
  exact key _

/-- The child counts as a column. -/
theorem V_counts (c : Dev nD) (R : Fin 32768) :
    (V m c main_v1 : S32768x1.Idx → BitVec 32) (ix2 R (0 : Fin 1)) = (m ((c : Thread nD τ).loc main_arg15) : S32768.Idx → BitVec 32) (ix1 R) := by
  have e : (V m c main_v1 : S32768x1.Idx → BitVec 32)
      = shapeCast S32768x1 (m ((c : Thread nD τ).loc main_arg15) : S32768.Idx → BitVec 32) shapeCasts_S32768_S32768x1 := by
    dsimp only [V, hostOps0]; after_results <;> rfl
  rw [e]
  exact shapeCast_a_a1_apply _ _ R 0

/-- A bias as a row (the six biases are prepared alike). -/
theorem row_of_bias (b : S256.Idx → EReal) (f : Fin 256) :
    shapeCast S1x256 b shapeCasts_S256_S1x256 (ix2 (0 : Fin 1) f) = b (ix1 f) :=
  shapeCast_a_1a_apply _ _ 0 f

theorem V_bias2 (c : Dev nD) : (V m c main_v2 : S1x256.Idx → EReal) = shapeCast S1x256 (m ((c : Thread nD τ).loc main_arg3) : S256.Idx → EReal) shapeCasts_S256_S1x256 := by
  dsimp only [V, hostOps0]; after_results <;> rfl
theorem V_bias3 (c : Dev nD) : (V m c main_v3 : S1x256.Idx → EReal) = shapeCast S1x256 (m ((c : Thread nD τ).loc main_arg5) : S256.Idx → EReal) shapeCasts_S256_S1x256 := by
  dsimp only [V, hostOps0]; after_results <;> rfl
theorem V_bias4 (c : Dev nD) : (V m c main_v4 : S1x256.Idx → EReal) = shapeCast S1x256 (m ((c : Thread nD τ).loc main_arg7) : S256.Idx → EReal) shapeCasts_S256_S1x256 := by
  dsimp only [V, hostOps0]; after_results <;> rfl
theorem V_bias5 (c : Dev nD) : (V m c main_v5 : S1x256.Idx → EReal) = shapeCast S1x256 (m ((c : Thread nD τ).loc main_arg9) : S256.Idx → EReal) shapeCasts_S256_S1x256 := by
  dsimp only [V, hostOps0]; after_results <;> rfl
theorem V_bias6 (c : Dev nD) : (V m c main_v6 : S1x256.Idx → EReal) = shapeCast S1x256 (m ((c : Thread nD τ).loc main_arg11) : S256.Idx → EReal) shapeCasts_S256_S1x256 := by
  dsimp only [V, hostOps0]; after_results <;> rfl
theorem V_bias7 (c : Dev nD) : (V m c main_v7 : S1x256.Idx → EReal) = shapeCast S1x256 (m ((c : Thread nD τ).loc main_arg13) : S256.Idx → EReal) shapeCasts_S256_S1x256 := by
  dsimp only [V, hostOps0]; after_results <;> rfl

theorem V_bias2_at (c : Dev nD) (f : Fin 256) :
    (V m c main_v2 : S1x256.Idx → EReal) (ix2 (0 : Fin 1) f) = (m ((c : Thread nD τ).loc main_arg3) : S256.Idx → EReal) (ix1 f) := by
  rw [V_bias2]; exact row_of_bias _ f
theorem V_bias3_at (c : Dev nD) (f : Fin 256) :
    (V m c main_v3 : S1x256.Idx → EReal) (ix2 (0 : Fin 1) f) = (m ((c : Thread nD τ).loc main_arg5) : S256.Idx → EReal) (ix1 f) := by
  rw [V_bias3]; exact row_of_bias _ f
theorem V_bias4_at (c : Dev nD) (f : Fin 256) :
    (V m c main_v4 : S1x256.Idx → EReal) (ix2 (0 : Fin 1) f) = (m ((c : Thread nD τ).loc main_arg7) : S256.Idx → EReal) (ix1 f) := by
  rw [V_bias4]; exact row_of_bias _ f
theorem V_bias5_at (c : Dev nD) (f : Fin 256) :
    (V m c main_v5 : S1x256.Idx → EReal) (ix2 (0 : Fin 1) f) = (m ((c : Thread nD τ).loc main_arg9) : S256.Idx → EReal) (ix1 f) := by
  rw [V_bias5]; exact row_of_bias _ f
theorem V_bias6_at (c : Dev nD) (f : Fin 256) :
    (V m c main_v6 : S1x256.Idx → EReal) (ix2 (0 : Fin 1) f) = (m ((c : Thread nD τ).loc main_arg11) : S256.Idx → EReal) (ix1 f) := by
  rw [V_bias6]; exact row_of_bias _ f
theorem V_bias7_at (c : Dev nD) (f : Fin 256) :
    (V m c main_v7 : S1x256.Idx → EReal) (ix2 (0 : Fin 1) f) = (m ((c : Thread nD τ).loc main_arg13) : S256.Idx → EReal) (ix1 f) := by
  rw [V_bias7]; exact row_of_bias _ f

/-- The first 256 rows of the child matrix. -/
theorem V_w1a (c : Dev nD) (f h : Fin 256) :
    (V m c main_v8 : S256x256.Idx → EReal) (ix2 f h)
      = (m ((c : Thread nD τ).loc main_arg4) : S320x256.Idx → EReal) (ix2 (⟨f.val, by have := f.isLt; omega⟩ : Fin 320) h) := by
  have e : (V m c main_v8 : S256x256.Idx → EReal)
      = extractStridedSlice S256x256 ![0, 0] (m ((c : Thread nD τ).loc main_arg4) : S320x256.Idx → EReal) slices_S320x256_S256x256_0_0 := by
    dsimp only [V, hostOps0]; after_results <;> rfl
  rw [e]
  exact slice2_axis0_apply 0 _ _ f h _ (Nat.zero_add _).symm

/-- Its last 64 rows. -/
theorem V_w1b (c : Dev nD) (k : Fin 64) (h : Fin 256) :
    (V m c main_v9 : S64x256.Idx → EReal) (ix2 k h)
      = (m ((c : Thread nD τ).loc main_arg4) : S320x256.Idx → EReal) (ix2 (⟨256 + k.val, by have := k.isLt; omega⟩ : Fin 320) h) := by
  have e : (V m c main_v9 : S64x256.Idx → EReal)
      = extractStridedSlice S64x256 ![256, 0] (m ((c : Thread nD τ).loc main_arg4) : S320x256.Idx → EReal) slices_S320x256_S64x256_256_0 := by
    dsimp only [V, hostOps0]; after_results <;> rfl
  rw [e]
  exact slice2_axis0_apply 256 _ _ k h _ rfl

/-! ## The windows' blocks -/

/-- The printed index maps, decided over the 32 points: the five row-tiled windows are at block row `t`, every
    other window at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_17.index t (0 : Fin 2) = t.val ∧ win0_17.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

theorem t_lt (t : Fin cfg0.N) : t.val < 32 := by
  have h := t.isLt
  have hN : cfg0.N = 32 := N_0
  omega

/-! ### Reading a block

Entry `(r, j)` of a row-tiled window's block at point `t` is entry `(1024 t + r, j)` of its array; a whole-array window's
block is its array. A block's coordinate on an axis is its block index times the block's extent plus the coordinate
inside the block. -/

/-- Row `r` of point `t`'s blocks is row `1024 t + r` of the arrays. -/
def rowOf (t : Fin cfg0.N) (r : Fin 1024) : Fin 32768 := ⟨1024 * t.val + r.val, by have := t_lt t; have := r.isLt; omega⟩

theorem blk0 (c : Dev nD) (t : Fin cfg0.N) (r : Fin 1024) (j : Fin 100) :
    (iblk m c 0 t : S1024x100.Idx → EReal) (ix2 r j) = (V m c main_v0 : S32768x100.Idx → EReal) (ix2 (rowOf t r) j) := by
  obtain ⟨h0, h1, -⟩ := idx_facts t
  unfold iblk
  rw [View.read_apply]
  show V m c main_v0 _ = V m c main_v0 _
  congr 1
  funext a
  apply Fin.ext
  match a with
  | ⟨0, _⟩ => show win0_0.index t 0 * 1024 + 1 * r.val = 1024 * t.val + r.val; rw [h0]; omega
  | ⟨1, _⟩ => show win0_0.index t 1 * 100 + 1 * j.val = j.val; rw [h1]; omega

theorem blk1 (c : Dev nD) (t : Fin cfg0.N) (r : Fin 1024) (j : Fin 10) :
    (iblk m c 1 t : S1024x10.Idx → BitVec 32) (ix2 r j) = (V m c main_arg14 : S32768x10.Idx → BitVec 32) (ix2 (rowOf t r) j) := by
  obtain ⟨-, -, h0, h1, -⟩ := idx_facts t
  unfold iblk
  rw [View.read_apply]
  show V m c main_arg14 _ = V m c main_arg14 _
  congr 1
  funext a
  apply Fin.ext
  match a with
  | ⟨0, _⟩ => show win0_1.index t 0 * 1024 + 1 * r.val = 1024 * t.val + r.val; rw [h0]; omega
  | ⟨1, _⟩ => show win0_1.index t 1 * 10 + 1 * j.val = j.val; rw [h1]; omega

theorem blk2 (c : Dev nD) (t : Fin cfg0.N) (r : Fin 1024) (j : Fin 1) :
    (iblk m c 2 t : S1024x1.Idx → BitVec 32) (ix2 r j) = (V m c main_v1 : S32768x1.Idx → BitVec 32) (ix2 (rowOf t r) j) := by
  obtain ⟨-, -, -, -, h0, h1, -⟩ := idx_facts t
  unfold iblk
  rw [View.read_apply]
  show V m c main_v1 _ = V m c main_v1 _
  congr 1
  funext a
  apply Fin.ext
  match a with
  | ⟨0, _⟩ => show win0_2.index t 0 * 1024 + 1 * r.val = 1024 * t.val + r.val; rw [h0]; omega
  | ⟨1, _⟩ => show win0_2.index t 1 * 1 + 1 * j.val = j.val; rw [h1]; omega

theorem blk3 (c : Dev nD) (t : Fin cfg0.N) (r : Fin 1024) (j : Fin 256) :
    (iblk m c 3 t : S1024x256.Idx → EReal) (ix2 r j) = (V m c main_arg1 : S32768x256.Idx → EReal) (ix2 (rowOf t r) j) := by
  obtain ⟨-, -, -, -, -, -, h0, h1, -⟩ := idx_facts t
  unfold iblk
  rw [View.read_apply]
  show V m c main_arg1 _ = V m c main_arg1 _
  congr 1
  funext a
  apply Fin.ext
  match a with
  | ⟨0, _⟩ => show win0_3.index t 0 * 1024 + 1 * r.val = 1024 * t.val + r.val; rw [h0]; omega
  | ⟨1, _⟩ => show win0_3.index t 1 * 256 + 1 * j.val = j.val; rw [h1]; omega

theorem blk4 (c : Dev nD) (t : Fin cfg0.N) (p : Fin 10) (q : Fin 256) :
    (iblk m c 4 t : S10x256.Idx → EReal) (ix2 p q) = (V m c main_arg2 : S10x256.Idx → EReal) (ix2 p q) := by
  obtain ⟨-, -, -, -, -, -, -, -, -, -, h0, h1, -⟩ := idx_facts t
  unfold iblk
  rw [View.read_apply]
  show V m c main_arg2 _ = V m c main_arg2 _
  congr 1
  funext a
  apply Fin.ext
  match a with
  | ⟨0, _⟩ => show win0_4.index t 0 * 10 + 1 * p.val = p.val; rw [h0]; omega
  | ⟨1, _⟩ => show win0_4.index t 1 * 256 + 1 * q.val = q.val; rw [h1]; omega

theorem blk5 (c : Dev nD) (t : Fin cfg0.N) (p : Fin 1) (q : Fin 256) :
    (iblk m c 5 t : S1x256.Idx → EReal) (ix2 p q) = (V m c main_v2 : S1x256.Idx → EReal) (ix2 p q) := by
  obtain ⟨-, -, -, -, -, -, -, -, -, -, -, -, h0, h1, -⟩ := idx_facts t
  unfold iblk
  rw [View.read_apply]
  show V m c main_v2 _ = V m c main_v2 _
  congr 1
  funext a
  apply Fin.ext
  match a with
  | ⟨0, _⟩ => show win0_5.index t 0 * 1 + 1 * p.val = p.val; rw [h0]; omega
  | ⟨1, _⟩ => show win0_5.index t 1 * 256 + 1 * q.val = q.val; rw [h1]; omega

theorem blk6 (c : Dev nD) (t : Fin cfg0.N) (p : Fin 256) (q : Fin 256) :
    (iblk m c 6 t : S256x256.Idx → EReal) (ix2 p q) = (V m c main_v8 : S256x256.Idx → EReal) (ix2 p q) := by
  obtain ⟨-, -, -, -, -, -, -, -, -, -, -, -, -, -, h0, h1, -⟩ := idx_facts t
  unfold iblk
  rw [View.read_apply]
  show V m c main_v8 _ = V m c main_v8 _
  congr 1
  funext a
  apply Fin.ext
  match a with
  | ⟨0, _⟩ => show win0_6.index t 0 * 256 + 1 * p.val = p.val; rw [h0]; omega
  | ⟨1, _⟩ => show win0_6.index t 1 * 256 + 1 * q.val = q.val; rw [h1]; omega

theorem blk7 (c : Dev nD) (t : Fin cfg0.N) (p : Fin 64) (q : Fin 256) :
    (iblk m c 7 t : S64x256.Idx → EReal) (ix2 p q) = (V m c main_v9 : S64x256.Idx → EReal) (ix2 p q) := by
  obtain ⟨-, -, -, -, -, -, -, -, -, -, -, -, -, -, -, -, h0, h1, -⟩ := idx_facts t
  unfold iblk
  rw [View.read_apply]
  show V m c main_v9 _ = V m c main_v9 _
  congr 1
  funext a
  apply Fin.ext
  match a with
  | ⟨0, _⟩ => show win0_7.index t 0 * 64 + 1 * p.val = p.val; rw [h0]; omega
  | ⟨1, _⟩ => show win0_7.index t 1 * 256 + 1 * q.val = q.val; rw [h1]; omega

theorem blk8 (c : Dev nD) (t : Fin cfg0.N) (p : Fin 1) (q : Fin 256) :
    (iblk m c 8 t : S1x256.Idx → EReal) (ix2 p q) = (V m c main_v3 : S1x256.Idx → EReal) (ix2 p q) := by
  obtain ⟨-, -, -, -, -, -, -, -, -, -, -, -, -, -, -, -, -, -, h0, h1, -⟩ := idx_facts t
  unfold iblk
  rw [View.read_apply]
  show V m c main_v3 _ = V m c main_v3 _
  congr 1
  funext a
  apply Fin.ext
  match a with
  | ⟨0, _⟩ => show win0_8.index t 0 * 1 + 1 * p.val = p.val; rw [h0]; omega
  | ⟨1, _⟩ => show win0_8.index t 1 * 256 + 1 * q.val = q.val; rw [h1]; omega

theorem blk9 (c : Dev nD) (t : Fin cfg0.N) (p : Fin 256) (q : Fin 256) :
    (iblk m c 9 t : S256x256.Idx → EReal) (ix2 p q) = (V m c main_arg6 : S256x256.Idx → EReal) (ix2 p q) := by
  obtain ⟨-, -, -, -, -, -, -, -, -, -, -, -, -, -, -, -, -, -, -, -, h0, h1, -⟩ := idx_facts t
  unfold iblk
  rw [View.read_apply]
  show V m c main_arg6 _ = V m c main_arg6 _
  congr 1
  funext a
  apply Fin.ext
  match a with
  | ⟨0, _⟩ => show win0_9.index t 0 * 256 + 1 * p.val = p.val; rw [h0]; omega
  | ⟨1, _⟩ => show win0_9.index t 1 * 256 + 1 * q.val = q.val; rw [h1]; omega

theorem blk10 (c : Dev nD) (t : Fin cfg0.N) (p : Fin 1) (q : Fin 256) :
    (iblk m c 10 t : S1x256.Idx → EReal) (ix2 p q) = (V m c main_v4 : S1x256.Idx → EReal) (ix2 p q) := by
  obtain ⟨-, -, -, -, -, -, -, -, -, -, -, -, -, -, -, -, -, -, -, -, -, -, h0, h1, -⟩ := idx_facts t
  unfold iblk
  rw [View.read_apply]
  show V m c main_v4 _ = V m c main_v4 _
  congr 1
  funext a
  apply Fin.ext
  match a with
  | ⟨0, _⟩ => show win0_10.index t 0 * 1 + 1 * p.val = p.val; rw [h0]; omega
  | ⟨1, _⟩ => show win0_10.index t 1 * 256 + 1 * q.val = q.val; rw [h1]; omega

theorem blk11 (c : Dev nD) (t : Fin cfg0.N) (p : Fin 256) (q : Fin 256) :
    (iblk m c 11 t : S256x256.Idx → EReal) (ix2 p q) = (V m c main_arg8 : S256x256.Idx → EReal) (ix2 p q) := by
  obtain ⟨-, -, -, -, -, -, -, -, -, -, -, -, -, -, -, -, -, -, -, -, -, -, -, -, h0, h1, -⟩ := idx_facts t
  unfold iblk
  rw [View.read_apply]
  show V m c main_arg8 _ = V m c main_arg8 _
  congr 1
  funext a
  apply Fin.ext
  match a with
  | ⟨0, _⟩ => show win0_11.index t 0 * 256 + 1 * p.val = p.val; rw [h0]; omega
  | ⟨1, _⟩ => show win0_11.index t 1 * 256 + 1 * q.val = q.val; rw [h1]; omega

theorem blk12 (c : Dev nD) (t : Fin cfg0.N) (p : Fin 1) (q : Fin 256) :
    (iblk m c 12 t : S1x256.Idx → EReal) (ix2 p q) = (V m c main_v5 : S1x256.Idx → EReal) (ix2 p q) := by
  obtain ⟨-, -, -, -, -, -, -, -, -, -, -, -, -, -, -, -, -, -, -, -, -, -, -, -, -, -, h0, h1, -⟩ := idx_facts t
  unfold iblk
  rw [View.read_apply]
  show V m c main_v5 _ = V m c main_v5 _
  congr 1
  funext a
  apply Fin.ext
  match a with
  | ⟨0, _⟩ => show win0_12.index t 0 * 1 + 1 * p.val = p.val; rw [h0]; omega
  | ⟨1, _⟩ => show win0_12.index t 1 * 256 + 1 * q.val = q.val; rw [h1]; omega

theorem blk13 (c : Dev nD) (t : Fin cfg0.N) (p : Fin 256) (q : Fin 256) :
    (iblk m c 13 t : S256x256.Idx → EReal) (ix2 p q) = (V m c main_arg10 : S256x256.Idx → EReal) (ix2 p q) := by
  obtain ⟨-, -, -, -, -, -, -, -, -, -, -, -, -, -, -, -, -, -, -, -, -, -, -, -, -, -, -, -, h0, h1, -⟩ := idx_facts t
  unfold iblk
  rw [View.read_apply]
  show V m c main_arg10 _ = V m c main_arg10 _
  congr 1
  funext a
  apply Fin.ext
  match a with
  | ⟨0, _⟩ => show win0_13.index t 0 * 256 + 1 * p.val = p.val; rw [h0]; omega
  | ⟨1, _⟩ => show win0_13.index t 1 * 256 + 1 * q.val = q.val; rw [h1]; omega

theorem blk14 (c : Dev nD) (t : Fin cfg0.N) (p : Fin 1) (q : Fin 256) :
    (iblk m c 14 t : S1x256.Idx → EReal) (ix2 p q) = (V m c main_v6 : S1x256.Idx → EReal) (ix2 p q) := by
  obtain ⟨-, -, -, -, -, -, -, -, -, -, -, -, -, -, -, -, -, -, -, -, -, -, -, -, -, -, -, -, -, -, h0, h1, -⟩ := idx_facts t
  unfold iblk
  rw [View.read_apply]
  show V m c main_v6 _ = V m c main_v6 _
  congr 1
  funext a
  apply Fin.ext
  match a with
  | ⟨0, _⟩ => show win0_14.index t 0 * 1 + 1 * p.val = p.val; rw [h0]; omega
  | ⟨1, _⟩ => show win0_14.index t 1 * 256 + 1 * q.val = q.val; rw [h1]; omega

theorem blk15 (c : Dev nD) (t : Fin cfg0.N) (p : Fin 256) (q : Fin 256) :
    (iblk m c 15 t : S256x256.Idx → EReal) (ix2 p q) = (V m c main_arg12 : S256x256.Idx → EReal) (ix2 p q) := by
  obtain ⟨-, -, -, -, -, -, -, -, -, -, -, -, -, -, -, -, -, -, -, -, -, -, -, -, -, -, -, -, -, -, -, -, h0, h1, -⟩ := idx_facts t
  unfold iblk
  rw [View.read_apply]
  show V m c main_arg12 _ = V m c main_arg12 _
  congr 1
  funext a
  apply Fin.ext
  match a with
  | ⟨0, _⟩ => show win0_15.index t 0 * 256 + 1 * p.val = p.val; rw [h0]; omega
  | ⟨1, _⟩ => show win0_15.index t 1 * 256 + 1 * q.val = q.val; rw [h1]; omega

theorem blk16 (c : Dev nD) (t : Fin cfg0.N) (p : Fin 1) (q : Fin 256) :
    (iblk m c 16 t : S1x256.Idx → EReal) (ix2 p q) = (V m c main_v7 : S1x256.Idx → EReal) (ix2 p q) := by
  obtain ⟨-, -, -, -, -, -, -, -, -, -, -, -, -, -, -, -, -, -, -, -, -, -, -, -, -, -, -, -, -, -, -, -, -, -, h0, h1⟩ := idx_facts t
  unfold iblk
  rw [View.read_apply]
  show V m c main_v7 _ = V m c main_v7 _
  congr 1
  funext a
  apply Fin.ext
  match a with
  | ⟨0, _⟩ => show win0_16.index t 0 * 1 + 1 * p.val = p.val; rw [h0]; omega
  | ⟨1, _⟩ => show win0_16.index t 1 * 256 + 1 * q.val = q.val; rw [h1]; omega

/-! ## What a point writes back, the cover, and the array after the run -/

/-- The weights of the child layers, read off the blocks, are the arguments'. -/
theorem child_eq (c : Dev nD) (t : Fin cfg0.N) :
    childOf (iblk m c 4 t) (iblk m c 5 t) (iblk m c 6 t) (iblk m c 7 t) (iblk m c 8 t)
      = childArr (m ((c : Thread nD τ).loc main_arg2)) (m ((c : Thread nD τ).loc main_arg3)) (m ((c : Thread nD τ).loc main_arg4)) (m ((c : Thread nD τ).loc main_arg5)) := by
  unfold childOf childArr
  refine congr (congr (congr (congr (congrArg Child.mk ?_) ?_) ?_) ?_) ?_
  · funext i f; exact (blk4 m c t i f).trans (congrFun (V_main_arg2 m c) _)
  · funext f; exact (blk5 m c t 0 f).trans (V_bias2_at m c f)
  · funext f h; exact (blk6 m c t f h).trans (V_w1a m c f h)
  · funext k h; exact (blk7 m c t k h).trans (V_w1b m c k h)
  · funext h; exact (blk8 m c t 0 h).trans (V_bias3_at m c h)

/-- So are the weights of the later layers. -/
theorem head_eq (c : Dev nD) (t : Fin cfg0.N) :
    headOf (iblk m c 9 t) (iblk m c 10 t) (iblk m c 11 t) (iblk m c 12 t) (iblk m c 13 t) (iblk m c 14 t) (iblk m c 15 t) (iblk m c 16 t)
      = headArr (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold headOf headArr
  refine congr (congr (congr (congr (congr (congr (congr (congrArg Head.mk ?_) ?_) ?_) ?_) ?_) ?_) ?_) ?_
  · funext h f; exact (blk9 m c t h f).trans (congrFun (V_main_arg6 m c) _)
  · funext f; exact (blk10 m c t 0 f).trans (V_bias4_at m c f)
  · funext f h; exact (blk11 m c t f h).trans (congrFun (V_main_arg8 m c) _)
  · funext h; exact (blk12 m c t 0 h).trans (V_bias5_at m c h)
  · funext h f; exact (blk13 m c t h f).trans (congrFun (V_main_arg10 m c) _)
  · funext f; exact (blk14 m c t 0 f).trans (V_bias6_at m c f)
  · funext h f; exact (blk15 m c t h f).trans (congrFun (V_main_arg12 m c) _)
  · funext f; exact (blk16 m c t 0 f).trans (V_bias7_at m c f)

/-- Entry `(r, j)` of the output block of point `t` sits at `(1024 t + r, j)` of the result array. -/
theorem emb17 (t : Fin cfg0.N) (r : Fin 1024) (j : Fin 512) :
    ((cfg0.win 17).blk t).view.emb (ix2 r j) = ix2 (rowOf t r) j := by
  obtain ⟨-, -, -, -, -, -, -, -, h0, h1, -⟩ := idx_facts t
  funext a
  apply Fin.ext
  match a with
  | ⟨0, _⟩ => show win0_17.index t 0 * 1024 + 1 * r.val = 1024 * t.val + r.val; rw [h0]; omega
  | ⟨1, _⟩ => show win0_17.index t 1 * 512 + 1 * j.val = j.val; rw [h1]; omega

/-- What point `t` writes back is block `t` of `G` of the arguments. -/
theorem flushed_eq (c : Dev nD) (t : Fin cfg0.N) :
    (dats m 0 c).flushed 17 t = ((cfg0.win 17).blk t).view.read (Elt Ideal) (GK m c) := by
  rw [Value.flushed17, out0_17_eq, View.canon_unit_zero hz]
  simp only [View.ld_unit_zero (S := S1024x100) hz, View.ld_unit_zero (S := S1024x10) hz, View.ld_unit_zero (S := S1024x1) hz,
    View.ld_unit_zero (S := S1024x256) hz, View.ld_unit_zero (S := S10x256) hz, View.ld_unit_zero (S := S1x256) hz,
    View.ld_unit_zero (S := S256x256) hz, View.ld_unit_zero (S := S64x256) hz]
  funext y
  obtain ⟨r, j, rfl⟩ : ∃ (r : Fin 1024) (j : Fin 512), y = ix2 r j := ⟨y 0, y 1, eq_ix2 y⟩
  show bodyOut (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (iblk m c 16 t) (ix2 r j) = GK m c (((cfg0.win 17).blk t).view.emb (ix2 r j))
  rw [bodyOut_apply, child_eq, head_eq, emb17]
  have hX : (fun (k i : Fin 10) => (iblk m c 0 t : S1024x100.Idx → EReal) (ix2 r (⟨10 * k.val + i.val, by have := k.isLt; have := i.isLt; omega⟩ : Fin 100)))
      = fun k i => (m ((c : Thread nD τ).loc main_arg0) : S32768x10x10.Idx → EReal) (ix3 (rowOf t r) k i) :=
    funext fun k => funext fun i => (blk0 m c t r _).trans (V_boxes m c (rowOf t r) k i)
  have hS : (fun k : Fin 10 => (iblk m c 1 t : S1024x10.Idx → BitVec 32) (ix2 r k))
      = fun k => (m ((c : Thread nD τ).loc main_arg14) : S32768x10.Idx → BitVec 32) (ix2 (rowOf t r) k) :=
    funext fun k => (blk1 m c t r k).trans (congrFun (V_main_arg14 m c) _)
  have hn : (iblk m c 2 t : S1024x1.Idx → BitVec 32) (ix2 r (0 : Fin 1))
      = (m ((c : Thread nD τ).loc main_arg15) : S32768.Idx → BitVec 32) (ix1 (rowOf t r)) := (blk2 m c t r 0).trans (V_counts m c (rowOf t r))
  have hE : (fun f : Fin 256 => (iblk m c 3 t : S1024x256.Idx → EReal) (ix2 r f))
      = fun f => (m ((c : Thread nD τ).loc main_arg1) : S32768x256.Idx → EReal) (ix2 (rowOf t r) f) :=
    funext fun f => (blk3 m c t r f).trans (congrFun (V_main_arg1 m c) _)
  rw [hX, hS, hn, hE]
  rfl

/-- The 32 blocks cover the result array: row `R` is in the block of point `R / 1024`. -/
theorem cover (i : S32768x512.Idx) : ∃ t : Fin cfg0.N, (cfg0.win 17).flush t = true ∧ i ∈ ((cfg0.win 17).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, -, -, -, -, h0, h1, -⟩ := idx_facts t
  refine ⟨t, flush0_17 t, ?_⟩
  show i ∈ ((View.whole main_v10).slice (win0_17.rect t)).set
  rw [View.set_slice_whole, Rect.mem_set_unit]
  intro a
  match a with
  | ⟨0, _⟩ =>
    show win0_17.index t 0 * 1024 ≤ (i 0).val ∧ (i 0).val < win0_17.index t 0 * 1024 + 1024
    rw [h0]
    show (i 0).val / 1024 * 1024 ≤ (i 0).val ∧ (i 0).val < (i 0).val / 1024 * 1024 + 1024
    omega
  | ⟨1, _⟩ =>
    show win0_17.index t 1 * 512 ≤ (i 1).val ∧ (i 1).val < win0_17.index t 1 * 512 + 512
    rw [h1]
    omega

/-- The result array after the run is `G` of the arguments. -/
theorem final (c : Dev nD) : (dats m 0 c).arrAt 17 cfg0.N = GK m c :=
  (dats m 0 c).arrAt_eq_of_cover 17 (GK m c) (fun t _ => flushed_eq m c t) cover

/-- The kernel's run: every weakly fair execution ends with the result array at `G` of the arguments and the
    arguments unchanged. -/
theorem run : θ_run defs (onTc (τ := τ) (main (F := Ideal))) ⟨m, fun _ => 0, ρ⟩ fun r => ∀ c : Dev nD,
      r.2.mem ((c : Thread nD τ).loc main_v10) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.KValue

end
-- ==== Proof.lean ====
/-
  The kernel and its reference compute the same array over the extended reals.

  Both programs take a batch of 32768 parent nodes, each with ten child slots, and return 512 numbers per
  parent. A child's ten box numbers go through `relu (· W_box + b_box)`; the result, joined with the one-hot
  code of the child's label, goes through `relu (· W1 + b1)`; children beyond the parent's child count are
  zeroed and the ten vectors are pooled by an entrywise maximum; three dense layers follow, ending in a mean
  `μ` and a log-variance `λ`, and the row of results is `ε · exp (λ / 2) + μ` followed by `1 + λ - μ² - exp λ`.

  The kernel walks the batch in 32 blocks of 1024 rows, handles the ten children one after the other, multiplies
  the box features by the first 256 rows of `W1` and the one-hot code by its last 64 rows, and pools into an
  accumulator that starts at zero. The reference handles all children at once, multiplies the joined vector by
  the whole of `W1`, and pools by a maximum started from −∞. Over the extended reals a change of float format does
  nothing and a matrix product is a plain sum, so the two differ only by the split of a sum over 320 terms into
  256 + 64 and by where the maximum starts — and every pooled term is a relu times an indicator, so it is at least
  zero and the two maxima agree. Neither step needs the inputs to be finite.

  Net.lean has the network on one row and these two facts; Spec.lean the result array `G` as a function of the
  arguments; RefIsG.lean reads the reference's run as `G`; Stage.lean, Body.lean and KernelIsG.lean read the kernel's
  run as `G`. The kernel is its own idealization (no rewrite was applied), and the three frame claims are the
  generated frame runs.
-/
import proofs.«129964_j46153718563045_2_alg».proof.Defs
import proofs.«129964_j46153718563045_2_alg».proof.Proof.Gen.Kernel
import proofs.«129964_j46153718563045_2_alg».proof.Proof.Gen.Kernel.Skeleton
import proofs.«129964_j46153718563045_2_alg».proof.Proof.Gen.Kernel.Launch
import proofs.«129964_j46153718563045_2_alg».proof.Proof.Gen.Kernel.Points
import proofs.«129964_j46153718563045_2_alg».proof.Proof.Gen.Kernel.Frame
import proofs.«129964_j46153718563045_2_alg».proof.Proof.Gen.KernelIdeal
import proofs.«129964_j46153718563045_2_alg».proof.Proof.Gen.KernelIdeal.Skeleton
import proofs.«129964_j46153718563045_2_alg».proof.Proof.Gen.KernelIdeal.Launch
import proofs.«129964_j46153718563045_2_alg».proof.Proof.Gen.KernelIdeal.Points
import proofs.«129964_j46153718563045_2_alg».proof.Proof.Gen.KernelIdeal.Frame
import proofs.«129964_j46153718563045_2_alg».proof.Proof.Gen.ReferenceIdeal
import proofs.«129964_j46153718563045_2_alg».proof.Proof.Gen.Pre_finite_inputs
import proofs.«129964_j46153718563045_2_alg».proof.Proof.Gen.KernelIdeal.Value
import proofs.«129964_j46153718563045_2_alg».proof.Proof.RefRun
import proofs.«129964_j46153718563045_2_alg».proof.Proof.RefRead
import proofs.«129964_j46153718563045_2_alg».proof.Proof.RefIsG
import proofs.«129964_j46153718563045_2_alg».proof.Proof.KernelIsG
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten on the way to the extended reals. -/
theorem preserves : Cert.preserves_Kernel_KernelIdeal := trivial

/-- From memories that agree on the arguments both runs end with the result array at `G` of the arguments. -/
theorem algebraic : Cert.algebraic_KernelIdeal_ReferenceIdeal := by
  intro m ρ m' ρ' _ hagree
  refine ⟨fun c => Cert.KernelIdeal.KValue.GK m c, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [Cert.ReferenceIdeal.ReadP.val_main_v52_eq, Cert.ReferenceIdeal.RefValue.result_eq, h0, h1, h2, h3, h4, h5, h6, h7, h8, h9, h10, h11, h12, h13, h14, h15]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
